-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S4x2048x3072 : Shape := ⟨3, ![4, 2048, 3072]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S8192x1024, .f32⟩
  | .hbm, ⟨4, _⟩ => ⟨S1024x3072, .f32⟩
  | .hbm, ⟨5, _⟩ => ⟨S1024x3072, .bf16⟩
  | .hbm, ⟨6, _⟩ => ⟨S8192x3072, .bf16⟩
  | .hbm, ⟨7, _⟩ => ⟨S4x2048x3072, .bf16⟩
  | .hbm, ⟨8, _⟩ => ⟨S4x2048x1024, .f32⟩
  | .hbm, ⟨9, _⟩ => ⟨S4x2048x2048, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x2048, .f32⟩
  | .local _ .vmem, ⟨15, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x3072.size a
  hwx1_0 : ∀ i : grid1.Coords, EltTy.bits .bf16 = 32 ∨ (Rect.block (s := S4x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S4x2048x2048.size a
  hwx1_4 : ∀ i : grid1.Coords, EltTy.bits .f32 = 32 ∨ (Rect.block (s := S4x2048x2048) S1x256x2048.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KBody0.lean ====
/-
  The first kernel region (the fused projection), at any float instance and at any contents `V` of the core's buffers
  when the region is entered. A grid point t reads three blocks — rows 512·t … of the flattened input, the whole
  transposed weight, the whole bias — and leaves in the output window's buffer one value: the body's arithmetic
  (the payload) of those three blocks, stored over the whole buffer. Stated here: the blocks, what the body leaves, the
  body's triple, the proof data of the pipeline and the body obligation at a generic point.
-/
import proofs.«106196_j64544768524377_2_alg».proof.Proof.Gen.Kernel.Launch
import proofs.«106196_j64544768524377_2_alg».proof.Proof.Gen.Kernel.Skeleton
import proofs.«106196_j64544768524377_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S512x3072 := Rect.unit (s := S512x3072) ![0, 0] S512x3072.size inb_S512x3072_S512x3072_0_0

/-- What the body leaves in the output window's buffer, from the three input blocks: its one store. -/
def out0_3 (x0 : Vec F S512x1024 .f32) (x1 : Vec F S1024x3072 .bf16) (x2 : Vec F S3072 .f32) : Vec F S512x3072 .bf16 :=
  View.canon [⟨r0_o, k0_pay1 (View.ld x0 r0_x) (View.ld x1 r0_w) (View.ld x2 r0_b)⟩]

/-- The store covers the buffer. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S3072 .f32) (harg3 : arg3.IsWhole)
    (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the region finds them; after the body at point `t`
    each input's buffer at its block and the output's at `out0_3` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second kernel region (the attention), at any float instance and at any contents `V` of the core's buffers when the
  region is entered. A grid point (n, j) reads three blocks of ONE array, the projection: query rows 256·j … of batch n
  (columns 0 …), all key rows of batch n (columns 1024 …) and all value rows of batch n (columns 2048 …); it leaves
  in the two output windows' buffers the body's arithmetic of those blocks: the attention weights of the 256 query rows
  and their output rows. The projection array is read through three windows, so each holds a third part of it: the
  left half, and the two halves of the right half, of the full share.
-/
import proofs.«106196_j64544768524377_2_alg».proof.Proof.Gen.Kernel.Launch
import proofs.«106196_j64544768524377_2_alg».proof.Proof.Gen.Kernel.Skeleton
import proofs.«106196_j64544768524377_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_q : Rect S1x256x1024 := Rect.unit (s := S1x256x1024) ![0, 0, 0] S1x256x1024.size inb_S1x256x1024_S1x256x1024_0_0_0
abbrev r1_k : Rect S1x2048x1024 := Rect.unit (s := S1x2048x1024) ![0, 0, 0] S1x2048x1024.size inb_S1x2048x1024_S1x2048x1024_0_0_0
abbrev r1_a : Rect S1x256x2048 := Rect.unit (s := S1x256x2048) ![0, 0, 0] S1x256x2048.size inb_S1x256x2048_S1x256x2048_0_0_0

/-- What the body leaves in the output windows' buffers, from the input blocks: one store each. -/
def out1_3 (x0 : Vec F S1x256x1024 .bf16) (x1 : Vec F S1x2048x1024 .bf16) (x2 : Vec F S1x2048x1024 .bf16) : Vec F S1x256x1024 .f32 :=
  View.canon [⟨r1_q, k1_pay3 (View.ld x0 r1_q) (View.ld x1 r1_k) (View.ld x2 r1_k)⟩]
def out1_4 (x0 : Vec F S1x256x1024 .bf16) (x1 : Vec F S1x2048x1024 .bf16) : Vec F S1x256x2048 .f32 :=
  View.canon [⟨r1_a, k1_pay2 (View.ld x0 r1_q) (View.ld x1 r1_k)⟩]

/-- Each store covers its buffer. -/
theorem cover1_3 (p0 : Vec F S1x256x1024 .f32) (y : S1x256x1024.Idx) :
    ∃ pc ∈ ([⟨r1_q, p0⟩] : List (View.Piece (Elt F) S1x256x1024 .f32)), y ∈ pc.1.set :=
  View.cover_of_tiled [⟨r1_q, p0⟩] S1x256x1024.size (by rfl) y
theorem cover1_4 (p0 : Vec F S1x256x2048 .f32) (y : S1x256x2048.Idx) :
    ∃ pc ∈ ([⟨r1_a, p0⟩] : List (View.Piece (Elt F) S1x256x2048 .f32)), y ∈ pc.1.set :=
  View.cover_of_tiled [⟨r1_a, p0⟩] S1x256x2048.size (by rfl) y

set_option maxHeartbeats 1000000 in
/-- The body on whole staging memrefs, the inputs' at contents `xW` and the outputs' at anything, runs to the
    continuation holding the inputs' as they were and the outputs' at `out1_3`, `out1_4` of the inputs'. -/
theorem sound_kernel1 (c : Dev nD) (E : Set ℕ) (i : grid1.Coords) (arg2 : Memref sig .tc .vmem S1x256x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x256x1024 .f32) (harg5 : arg5.IsWhole) (arg6 : Memref sig .tc .vmem S1x256x2048 .f32) (harg6 : arg6.IsWhole)
    (x0 : Vec F S1x256x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data of the pipeline on core `c`: the arrays as the region finds them; after the body at point `t`
    each input's buffer at its block and each output's at `out1_W` of the input blocks; the invariant is the scoped rest and
    the generator register, untouched; nothing owed; the projection array's full share in three parts, one per
    input window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShare.lean ====
/-
  The projection array is read by the attention region through three windows. Held whole when the region is entered, it
  is dealt to them in three parts — the left half of the full share, and the two halves of the right half — and the
  parts are put together again when the region is left; the two result arrays are held whole throughout. These are the
  two regroupings, between "every unscoped buffer of the core at given contents" and "the pipeline's arrays beside the
  other unscoped buffers".
-/
import proofs.«106196_j64544768524377_2_alg».proof.Proof.Gen.Kernel.Launch
import proofs.«106196_j64544768524377_2_alg».proof.Proof.Gen.Kernel.Skeleton
import proofs.«106196_j64544768524377_2_alg».proof.Proof.Gen.Kernel.Points
import proofs.«106196_j64544768524377_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window: the projection array at its three parts, each result array whole. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v4) ↦{fullShare.left} G 0) ∗ (((c : Thread nD τ).loc main_v4) ↦{fullShare.right.left} G 1)
      ∗ (((c : Thread nD τ).loc main_v4) ↦{fullShare.right.right} G 2)
      ∗ (((c : Thread nD τ).loc main_v5_0) ↦{fullShare} G 3) ∗ (((c : Thread nD τ).loc main_v5_1) ↦{fullShare} G 4)) := by
  unfold Dat.arrays
  rw [bigSep_W1]
  rw [(arr_whole1 0).set_eq_univ, (arr_whole1 3).set_eq_univ, (arr_whole1 4).set_eq_univ]
  rfl

/-- ENTRY: every unscoped buffer of the core at contents `V c` is the pipeline's arrays at their entry contents — the
    projection array dealt in three parts — beside the unscoped buffers no window reads. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c), arrays1_eq]
  refine sep_mono ?_ .rfl
  unfold Pipeline.arrBufs
  rw [bigSep_eq_bigSepL_of_eq [main_v4, main_v5_0, main_v5_1] (by decide) (by decide)]
  show iprop((((c : Thread nD τ).loc main_v4) ↦{fullShare} V c main_v4) ∗ (((c : Thread nD τ).loc main_v5_0) ↦{fullShare} V c main_v5_0)
    ∗ (((c : Thread nD τ).loc main_v5_1) ↦{fullShare} V c main_v5_1)) ⊢ _
  iintro ⟨H4, H50, H51⟩
  ihave H := (pointsTo_share (PosShare.mem_left_op_right fullShare)).1 $$ H4
  icases H with ⟨H0, H12⟩
  ihave H12 := (pointsTo_share (PosShare.mem_left_op_right fullShare.right)).1 $$ H12
  icases H12 with ⟨H1, H2⟩
  isplitl [H0]; · iexact H0
  isplitl [H1]; · iexact H1
  isplitl [H2]; · iexact H2
  isplitl [H50]; · iexact H50
  iexact H51

/-- EXIT: the pipeline's arrays at contents `G` — the three parts of the projection array at one and the same contents —
    beside the other unscoped buffers at `V c` are every unscoped buffer of the core at any contents `V'` that has the
    arrays at `G` and agrees with `V c` elsewhere. -/
theorem exit1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v4) (h1 : G 1 = V' main_v4) (h2 : G 2 = V' main_v4) (h3 : G 3 = V' main_v5_0) (h4 : G 4 = V' main_v5_1)
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [Pipeline.unscopedBufs_split₀ cfgs 1 winFacts₀1.arr_unscoped c V', arrays1_eq, h0, h1, h2, h3, h4]
  refine sep_mono ?_ (Entails.of_eq ?_)
  · unfold Pipeline.arrBufs
    rw [bigSep_eq_bigSepL_of_eq [main_v4, main_v5_0, main_v5_1] (by decide) (by decide)]
    show _ ⊢ iprop((((c : Thread nD τ).loc main_v4) ↦{fullShare} V' main_v4) ∗ (((c : Thread nD τ).loc main_v5_0) ↦{fullShare} V' main_v5_0)
      ∗ (((c : Thread nD τ).loc main_v5_1) ↦{fullShare} V' main_v5_1))
    iintro ⟨H0, H1, H2, H50, H51⟩
    isplitl [H0 H1 H2]
    · iapply (pointsTo_share (PosShare.mem_left_op_right fullShare)).2
      isplitl [H0]; · iexact H0
      iapply (pointsTo_share (PosShare.mem_left_op_right fullShare.right)).2
      isplitl [H1] <;> iassumption
    isplitl [H50] <;> iassumption
  · unfold Pipeline.unscopedRest
    exact bigSep_congr fun b hb => by rw [hrest b (Finset.mem_sdiff.mp hb).2]

end Cert.Kernel.Hand

end
-- ==== Proof.KRun.lean ====
/-
  The run of the whole program, at any float instance: @main is a stretch of host operations (a reshape, a transpose, a
  change of format), the projection region, one more host operation (a reshape) and the attention region. The contents of
  the core's buffers at each boundary are a fold from the launch memory: a host stretch applies its operations; a region
  leaves its result arrays at what its write-backs made of them and every other buffer as it was. Each region enters
  from "every unscoped buffer at the boundary's contents" and leaves at the next boundary's; the projection array goes
  into the attention region in three parts and comes back whole. Every weakly fair execution terminates, nothing faults,
  the two results end at the last boundary's contents and the three arguments as launched.
-/
import proofs.«106196_j64544768524377_2_alg».proof.Proof.Gen.Kernel.Launch
import proofs.«106196_j64544768524377_2_alg».proof.Proof.Gen.Kernel.Skeleton
import proofs.«106196_j64544768524377_2_alg».proof.Proof.Gen.Kernel.Points
import proofs.«106196_j64544768524377_2_alg».proof.Proof.Gen.Kernel.Regions
import proofs.«106196_j64544768524377_2_alg».proof.Proof.KBody0
import proofs.«106196_j64544768524377_2_alg».proof.Proof.KShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev val0 : Dev nD → Valuation τ sig (Elt F) := fun c b => m (c, b)
/-- After the first host stretch (the projection region's entry). -/
abbrev val1 : Dev nD → Valuation τ sig (Elt F) := fun c => StableHlo.after hostOps0 (val0 m c)
/-- The same read at the TensorCore's references. -/
abbrev ent0 : (c : Dev nD) → (b : Ref sig .tc) → Buf (Elt F) ((c : Thread nD τ).loc b) := fun c b => val1 m c b
/-- At the projection region's exit: its arrays at what the pipeline leaves, every other buffer as entered. -/
def val2 (c : Dev nD) : Valuation τ sig (Elt F) :=
  Pipeline.withArrays spec0 c (val1 m c) fun w => (dat0 (ent0 m) c).arrAt w cfg0.N
theorem val2_arr (c : Dev nD) (w : Fin cfg0.W) :
    val2 m c (Proc.devRef .tc (Pipeline.arrRef spec0 w)) = (dat0 (ent0 m) c).arrAt w cfg0.N := by
  unfold val2; exact Pipeline.withArrays_arr spec0 launch0.win.arr_inj c _ _ w
theorem val2_of_ne (c : Dev nD) (b : Ref sig .tc) (hb : ∀ w, Pipeline.arrRef spec0 w ≠ b) :
    val2 m c (Proc.devRef .tc b) = val1 m c (Proc.devRef .tc b) := by
  unfold val2; exact Pipeline.withArrays_of_ne spec0 c _ _ b hb
abbrev ext0 : (c : Dev nD) → (b : Ref sig .tc) → Buf (Elt F) ((c : Thread nD τ).loc b) := fun c b => val2 m c b
theorem hF0 (c : Dev nD) (w : Fin cfg0.W) : (dat0 (ent0 m) c).arrAt w cfg0.N = ext0 m c (Pipeline.arrRef spec0 w) :=
  (val2_arr m c w).symm
theorem hrest0 (c : Dev nD) : ∀ b, b ∉ Finset.univ.image (Pipeline.arrRef spec0) → ext0 m c b = ent0 m c b :=
  fun b hb => val2_of_ne m c b fun w e => hb (Finset.mem_image.mpr ⟨w, Finset.mem_univ _, e⟩)

/-- After the second host stretch (the attention region's entry). -/
abbrev val3 : Dev nD → Valuation τ sig (Elt F) := fun c => StableHlo.after hostOps1 (val2 m c)
abbrev ent1 : (c : Dev nD) → (b : Ref sig .tc) → Buf (Elt F) ((c : Thread nD τ).loc b) := fun c b => val3 m c b
/-- At the attention region's exit: the two result arrays at what the pipeline leaves, every other buffer as entered. -/
def val4 (c : Dev nD) : Valuation τ sig (Elt F) :=
  Function.update (Function.update (val3 m c) main_v5_0 ((dat1 (ent1 m) c).arrAt 3 cfg1.N)) main_v5_1 ((dat1 (ent1 m) c).arrAt 4 cfg1.N)
theorem val4_v5_1 (c : Dev nD) : val4 m c (Proc.devRef .tc main_v5_1) = (dat1 (ent1 m) c).arrAt 4 cfg1.N := by
  unfold val4; exact Function.update_self ..
theorem val4_v5_0 (c : Dev nD) : val4 m c (Proc.devRef .tc main_v5_0) = (dat1 (ent1 m) c).arrAt 3 cfg1.N := by
  unfold val4
  rw [Function.update_of_ne (StableHlo.devRef_ne_of_ne (by decide) : (Proc.devRef .tc main_v5_0 : DevRef τ sig) ≠ Proc.devRef .tc main_v5_1)]
  exact Function.update_self ..
theorem val4_of_ne (c : Dev nD) (b : Ref sig .tc) (h0 : b ≠ main_v5_0) (h1 : b ≠ main_v5_1) :
    val4 m c (Proc.devRef .tc b) = val3 m c (Proc.devRef .tc b) := by
  unfold val4
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
abbrev ext1 : (c : Dev nD) → (b : Ref sig .tc) → Buf (Elt F) ((c : Thread nD τ).loc b) := fun c b => val4 m c b

/-! ### The arguments end as launched: no host operation and no region writes one -/

theorem val1_of (c : Dev nD) (r : Ref sig .tc) (h : r ∉ hostOps0_W) : val1 m c (Proc.devRef .tc r) = val0 m c (Proc.devRef .tc r) :=
  StableHlo.after_of_writes_sub hostOps0 _ hostOps0_writes h
theorem val3_of (c : Dev nD) (r : Ref sig .tc) (h : r ∉ hostOps1_W) : val3 m c (Proc.devRef .tc r) = val2 m c (Proc.devRef .tc r) :=
  StableHlo.after_of_writes_sub hostOps1 _ hostOps1_writes h

theorem val4_main_arg0 (c : Dev nD) : val4 m c (Proc.devRef .tc main_arg0) = m ((c : Thread nD τ).loc main_arg0) :=
  (val4_of_ne m c main_arg0 (by decide) (by decide)).trans <| (val3_of m c main_arg0 (by decide)).trans <|
    (val2_of_ne m c main_arg0 (by decide)).trans <| (val1_of m c main_arg0 (by decide)).trans rfl
theorem val4_main_arg1 (c : Dev nD) : val4 m c (Proc.devRef .tc main_arg1) = m ((c : Thread nD τ).loc main_arg1) :=
  (val4_of_ne m c main_arg1 (by decide) (by decide)).trans <| (val3_of m c main_arg1 (by decide)).trans <|
    (val2_of_ne m c main_arg1 (by decide)).trans <| (val1_of m c main_arg1 (by decide)).trans rfl
theorem val4_main_arg2 (c : Dev nD) : val4 m c (Proc.devRef .tc main_arg2) = m ((c : Thread nD τ).loc main_arg2) :=
  (val4_of_ne m c main_arg2 (by decide) (by decide)).trans <| (val3_of m c main_arg2 (by decide)).trans <|
    ((val2_arr m c 2).trans (((dat0 (ent0 m) c).arrAt_in 2 rfl _).trans (A_eq0 (ent0 m) c 2))).trans <|
    (val1_of m c main_arg2 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (val4 m c) ∗ ∃ r, prngReg c r)

/-! ## The regions as segments -/

set_option backward.isDefEq.respectTransparency.types false in
/-- The projection region: entered from every unscoped buffer at `val1`, left at `val2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (val1 m c) ∗ R c)
  post c := iprop(StableHlo.held (c : Thread nD τ) (Pipeline.ucRefs τ sig) (val2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `val3`, left at `val4`; the projection array goes in
    dealt in three parts and comes back whole. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (val3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := entry1 (ent1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hkeep : ∀ w : Fin cfg1.W, (cfg1.win w).isOut = false →
        (dat1 (ent1 m) c).arrAt w cfg1.N = ent1 m c (Pipeline.arrRef spec1 w) :=
      fun w hw => ((dat1 (ent1 m) c).arrAt_in w hw _).trans (A_eq1 (ent1 m) c w)
    have hv4 : ext1 m c main_v4 = ent1 m c main_v4 := val4_of_ne m c main_v4 (by decide) (by decide)
    have hjoin := exit1 (ent1 m) c (ext1 m c) ((dat1 (ent1 m) c).arrAt · cfg1.N)
      ((hkeep 0 rfl).trans hv4.symm) ((hkeep 1 rfl).trans hv4.symm) ((hkeep 2 rfl).trans hv4.symm)
      (val4_v5_0 m c).symm (val4_v5_1 m c).symm
      (fun b hb => val4_of_ne m c b
        (fun e => hb (Finset.mem_image.mpr ⟨3, Finset.mem_univ _, e.symm⟩))
        (fun e => hb (Finset.mem_image.mpr ⟨4, Finset.mem_univ _, e.symm⟩)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (val0 m)),
    .region (reg0 m),
    .host (hseg hostOps1 hostOps1_sub hostOps1_fresh (val2 m)),
    .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has the two results at the last boundary's contents and the three arguments as launched. -/
theorem run_main : θ_run defs (onTc (τ := τ) (main (F := F))) ⟨m, fun _ => 0, ρ⟩ (fun r => ∀ c : Dev nD,
      r.2.mem ((c.tc : Thread nD τ).loc main_v5_0) = (dat1 (ent1 m) c).arrAt 3 cfg1.N
      ∧ r.2.mem ((c.tc : Thread nD τ).loc main_v5_1) = (dat1 (ent1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (val0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (val0 m c)
        from Pipeline.unscopedBufs_held c (val0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = val4 m c b)
    (hfin := fun c s' => by
      iintro ⟨⟨Hh, -⟩, HSI⟩
      unfold StableHlo.held
      imodintro
      iapply (pointsTo_read_all (Pipeline.ucRefs τ sig) (fun b => (((c : Thread nD τ)).1, b)) (val4 m c) s')
      isplitl [Hh] <;> iassumption)
    (hQ := fun s h c =>
      ⟨(h c _ (mem_uc main_v5_0 (by decide))).trans (val4_v5_0 m c),
       (h c _ (mem_uc main_v5_1 (by decide))).trans (val4_v5_1 m c),
       (h c _ (mem_uc main_arg0 (by decide))).trans (val4_main_arg0 m c),
       (h c _ (mem_uc main_arg1 (by decide))).trans (val4_main_arg1 m c),
       (h c _ (mem_uc main_arg2 (by decide))).trans (val4_main_arg2 m c)⟩)

end Cert.Kernel.Hand

end
-- ==== Proof.KiBody0.lean ====
/-
  The first kernel region (the fused projection), at any float instance and at any contents `V` of the core's buffers
  when the region is entered. A grid point t reads three blocks — rows 512·t … of the flattened input, the whole
  transposed weight, the whole bias — and leaves in the output window's buffer one value: the body's arithmetic
  (the payload) of those three blocks, stored over the whole buffer. Stated here: the blocks, what the body leaves, the
  body's triple, the proof data of the pipeline and the body obligation at a generic point.
-/
import proofs.«106196_j64544768524377_2_alg».proof.Proof.Gen.KernelIdeal.Launch
import proofs.«106196_j64544768524377_2_alg».proof.Proof.Gen.KernelIdeal.Skeleton
import proofs.«106196_j64544768524377_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S512x3072 := Rect.unit (s := S512x3072) ![0, 0] S512x3072.size inb_S512x3072_S512x3072_0_0

/-- What the body leaves in the output window's buffer, from the three input blocks: its one store. -/
def out0_3 (x0 : Vec F S512x1024 .f32) (x1 : Vec F S1024x3072 .bf16) (x2 : Vec F S3072 .f32) : Vec F S512x3072 .bf16 :=
  View.canon [⟨r0_o, k0_pay1 (View.ld x0 r0_x) (View.ld x1 r0_w) (View.ld x2 r0_b)⟩]

/-- The store covers the buffer. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S3072 .f32) (harg3 : arg3.IsWhole)
    (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the region finds them; after the body at point `t`
    each input's buffer at its block and the output's at `out0_3` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  The second kernel region (the attention), at any float instance and at any contents `V` of the core's buffers when the
  region is entered. A grid point (n, j) reads three blocks of ONE array, the projection: query rows 256·j … of batch n
  (columns 0 …), all key rows of batch n (columns 1024 …) and all value rows of batch n (columns 2048 …); it leaves
  in the two output windows' buffers the body's arithmetic of those blocks: the attention weights of the 256 query rows
  and their output rows. The projection array is read through three windows, so each holds a third part of it: the
  left half, and the two halves of the right half, of the full share.
-/
import proofs.«106196_j64544768524377_2_alg».proof.Proof.Gen.KernelIdeal.Launch
import proofs.«106196_j64544768524377_2_alg».proof.Proof.Gen.KernelIdeal.Skeleton
import proofs.«106196_j64544768524377_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_q : Rect S1x256x1024 := Rect.unit (s := S1x256x1024) ![0, 0, 0] S1x256x1024.size inb_S1x256x1024_S1x256x1024_0_0_0
abbrev r1_k : Rect S1x2048x1024 := Rect.unit (s := S1x2048x1024) ![0, 0, 0] S1x2048x1024.size inb_S1x2048x1024_S1x2048x1024_0_0_0
abbrev r1_a : Rect S1x256x2048 := Rect.unit (s := S1x256x2048) ![0, 0, 0] S1x256x2048.size inb_S1x256x2048_S1x256x2048_0_0_0

/-- What the body leaves in the output windows' buffers, from the input blocks: one store each. -/
def out1_3 (x0 : Vec F S1x256x1024 .bf16) (x1 : Vec F S1x2048x1024 .bf16) (x2 : Vec F S1x2048x1024 .bf16) : Vec F S1x256x1024 .f32 :=
  View.canon [⟨r1_q, k1_pay3 (View.ld x0 r1_q) (View.ld x1 r1_k) (View.ld x2 r1_k)⟩]
def out1_4 (x0 : Vec F S1x256x1024 .bf16) (x1 : Vec F S1x2048x1024 .bf16) : Vec F S1x256x2048 .f32 :=
  View.canon [⟨r1_a, k1_pay2 (View.ld x0 r1_q) (View.ld x1 r1_k)⟩]

/-- Each store covers its buffer. -/
theorem cover1_3 (p0 : Vec F S1x256x1024 .f32) (y : S1x256x1024.Idx) :
    ∃ pc ∈ ([⟨r1_q, p0⟩] : List (View.Piece (Elt F) S1x256x1024 .f32)), y ∈ pc.1.set :=
  View.cover_of_tiled [⟨r1_q, p0⟩] S1x256x1024.size (by rfl) y
theorem cover1_4 (p0 : Vec F S1x256x2048 .f32) (y : S1x256x2048.Idx) :
    ∃ pc ∈ ([⟨r1_a, p0⟩] : List (View.Piece (Elt F) S1x256x2048 .f32)), y ∈ pc.1.set :=
  View.cover_of_tiled [⟨r1_a, p0⟩] S1x256x2048.size (by rfl) y

set_option maxHeartbeats 1000000 in
/-- The body on whole staging memrefs, the inputs' at contents `xW` and the outputs' at anything, runs to the
    continuation holding the inputs' as they were and the outputs' at `out1_3`, `out1_4` of the inputs'. -/
theorem sound_kernel1 (c : Dev nD) (E : Set ℕ) (i : grid1.Coords) (arg2 : Memref sig .tc .vmem S1x256x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x256x1024 .f32) (harg5 : arg5.IsWhole) (arg6 : Memref sig .tc .vmem S1x256x2048 .f32) (harg6 : arg6.IsWhole)
    (x0 : Vec F S1x256x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data of the pipeline on core `c`: the arrays as the region finds them; after the body at point `t`
    each input's buffer at its block and each output's at `out1_W` of the input blocks; the invariant is the scoped rest and
    the generator register, untouched; nothing owed; the projection array's full share in three parts, one per
    input window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiShare.lean ====
/-
  The projection array is read by the attention region through three windows. Held whole when the region is entered, it
  is dealt to them in three parts — the left half of the full share, and the two halves of the right half — and the
  parts are put together again when the region is left; the two result arrays are held whole throughout. These are the
  two regroupings, between "every unscoped buffer of the core at given contents" and "the pipeline's arrays beside the
  other unscoped buffers".
-/
import proofs.«106196_j64544768524377_2_alg».proof.Proof.Gen.KernelIdeal.Launch
import proofs.«106196_j64544768524377_2_alg».proof.Proof.Gen.KernelIdeal.Skeleton
import proofs.«106196_j64544768524377_2_alg».proof.Proof.Gen.KernelIdeal.Points
import proofs.«106196_j64544768524377_2_alg».proof.Proof.KiBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window: the projection array at its three parts, each result array whole. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v4) ↦{fullShare.left} G 0) ∗ (((c : Thread nD τ).loc main_v4) ↦{fullShare.right.left} G 1)
      ∗ (((c : Thread nD τ).loc main_v4) ↦{fullShare.right.right} G 2)
      ∗ (((c : Thread nD τ).loc main_v5_0) ↦{fullShare} G 3) ∗ (((c : Thread nD τ).loc main_v5_1) ↦{fullShare} G 4)) := by
  unfold Dat.arrays
  rw [bigSep_W1]
  rw [(arr_whole1 0).set_eq_univ, (arr_whole1 3).set_eq_univ, (arr_whole1 4).set_eq_univ]
  rfl

/-- ENTRY: every unscoped buffer of the core at contents `V c` is the pipeline's arrays at their entry contents — the
    projection array dealt in three parts — beside the unscoped buffers no window reads. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c), arrays1_eq]
  refine sep_mono ?_ .rfl
  unfold Pipeline.arrBufs
  rw [bigSep_eq_bigSepL_of_eq [main_v4, main_v5_0, main_v5_1] (by decide) (by decide)]
  show iprop((((c : Thread nD τ).loc main_v4) ↦{fullShare} V c main_v4) ∗ (((c : Thread nD τ).loc main_v5_0) ↦{fullShare} V c main_v5_0)
    ∗ (((c : Thread nD τ).loc main_v5_1) ↦{fullShare} V c main_v5_1)) ⊢ _
  iintro ⟨H4, H50, H51⟩
  ihave H := (pointsTo_share (PosShare.mem_left_op_right fullShare)).1 $$ H4
  icases H with ⟨H0, H12⟩
  ihave H12 := (pointsTo_share (PosShare.mem_left_op_right fullShare.right)).1 $$ H12
  icases H12 with ⟨H1, H2⟩
  isplitl [H0]; · iexact H0
  isplitl [H1]; · iexact H1
  isplitl [H2]; · iexact H2
  isplitl [H50]; · iexact H50
  iexact H51

/-- EXIT: the pipeline's arrays at contents `G` — the three parts of the projection array at one and the same contents —
    beside the other unscoped buffers at `V c` are every unscoped buffer of the core at any contents `V'` that has the
    arrays at `G` and agrees with `V c` elsewhere. -/
theorem exit1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v4) (h1 : G 1 = V' main_v4) (h2 : G 2 = V' main_v4) (h3 : G 3 = V' main_v5_0) (h4 : G 4 = V' main_v5_1)
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [Pipeline.unscopedBufs_split₀ cfgs 1 winFacts₀1.arr_unscoped c V', arrays1_eq, h0, h1, h2, h3, h4]
  refine sep_mono ?_ (Entails.of_eq ?_)
  · unfold Pipeline.arrBufs
    rw [bigSep_eq_bigSepL_of_eq [main_v4, main_v5_0, main_v5_1] (by decide) (by decide)]
    show _ ⊢ iprop((((c : Thread nD τ).loc main_v4) ↦{fullShare} V' main_v4) ∗ (((c : Thread nD τ).loc main_v5_0) ↦{fullShare} V' main_v5_0)
      ∗ (((c : Thread nD τ).loc main_v5_1) ↦{fullShare} V' main_v5_1))
    iintro ⟨H0, H1, H2, H50, H51⟩
    isplitl [H0 H1 H2]
    · iapply (pointsTo_share (PosShare.mem_left_op_right fullShare)).2
      isplitl [H0]; · iexact H0
      iapply (pointsTo_share (PosShare.mem_left_op_right fullShare.right)).2
      isplitl [H1] <;> iassumption
    isplitl [H50] <;> iassumption
  · unfold Pipeline.unscopedRest
    exact bigSep_congr fun b hb => by rw [hrest b (Finset.mem_sdiff.mp hb).2]

end Cert.KernelIdeal.Hand

end
-- ==== Proof.KiRun.lean ====
/-
  The run of the whole program, at any float instance: @main is a stretch of host operations (a reshape, a transpose, a
  change of format), the projection region, one more host operation (a reshape) and the attention region. The contents of
  the core's buffers at each boundary are a fold from the launch memory: a host stretch applies its operations; a region
  leaves its result arrays at what its write-backs made of them and every other buffer as it was. Each region enters
  from "every unscoped buffer at the boundary's contents" and leaves at the next boundary's; the projection array goes
  into the attention region in three parts and comes back whole. Every weakly fair execution terminates, nothing faults,
  the two results end at the last boundary's contents and the three arguments as launched.
-/
import proofs.«106196_j64544768524377_2_alg».proof.Proof.Gen.KernelIdeal.Launch
import proofs.«106196_j64544768524377_2_alg».proof.Proof.Gen.KernelIdeal.Skeleton
import proofs.«106196_j64544768524377_2_alg».proof.Proof.Gen.KernelIdeal.Points
import proofs.«106196_j64544768524377_2_alg».proof.Proof.Gen.KernelIdeal.Regions
import proofs.«106196_j64544768524377_2_alg».proof.Proof.KiBody0
import proofs.«106196_j64544768524377_2_alg».proof.Proof.KiShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev val0 : Dev nD → Valuation τ sig (Elt F) := fun c b => m (c, b)
/-- After the first host stretch (the projection region's entry). -/
abbrev val1 : Dev nD → Valuation τ sig (Elt F) := fun c => StableHlo.after hostOps0 (val0 m c)
/-- The same read at the TensorCore's references. -/
abbrev ent0 : (c : Dev nD) → (b : Ref sig .tc) → Buf (Elt F) ((c : Thread nD τ).loc b) := fun c b => val1 m c b
/-- At the projection region's exit: its arrays at what the pipeline leaves, every other buffer as entered. -/
def val2 (c : Dev nD) : Valuation τ sig (Elt F) :=
  Pipeline.withArrays spec0 c (val1 m c) fun w => (dat0 (ent0 m) c).arrAt w cfg0.N
theorem val2_arr (c : Dev nD) (w : Fin cfg0.W) :
    val2 m c (Proc.devRef .tc (Pipeline.arrRef spec0 w)) = (dat0 (ent0 m) c).arrAt w cfg0.N := by
  unfold val2; exact Pipeline.withArrays_arr spec0 launch0.win.arr_inj c _ _ w
theorem val2_of_ne (c : Dev nD) (b : Ref sig .tc) (hb : ∀ w, Pipeline.arrRef spec0 w ≠ b) :
    val2 m c (Proc.devRef .tc b) = val1 m c (Proc.devRef .tc b) := by
  unfold val2; exact Pipeline.withArrays_of_ne spec0 c _ _ b hb
abbrev ext0 : (c : Dev nD) → (b : Ref sig .tc) → Buf (Elt F) ((c : Thread nD τ).loc b) := fun c b => val2 m c b
theorem hF0 (c : Dev nD) (w : Fin cfg0.W) : (dat0 (ent0 m) c).arrAt w cfg0.N = ext0 m c (Pipeline.arrRef spec0 w) :=
  (val2_arr m c w).symm
theorem hrest0 (c : Dev nD) : ∀ b, b ∉ Finset.univ.image (Pipeline.arrRef spec0) → ext0 m c b = ent0 m c b :=
  fun b hb => val2_of_ne m c b fun w e => hb (Finset.mem_image.mpr ⟨w, Finset.mem_univ _, e⟩)

/-- After the second host stretch (the attention region's entry). -/
abbrev val3 : Dev nD → Valuation τ sig (Elt F) := fun c => StableHlo.after hostOps1 (val2 m c)
abbrev ent1 : (c : Dev nD) → (b : Ref sig .tc) → Buf (Elt F) ((c : Thread nD τ).loc b) := fun c b => val3 m c b
/-- At the attention region's exit: the two result arrays at what the pipeline leaves, every other buffer as entered. -/
def val4 (c : Dev nD) : Valuation τ sig (Elt F) :=
  Function.update (Function.update (val3 m c) main_v5_0 ((dat1 (ent1 m) c).arrAt 3 cfg1.N)) main_v5_1 ((dat1 (ent1 m) c).arrAt 4 cfg1.N)
theorem val4_v5_1 (c : Dev nD) : val4 m c (Proc.devRef .tc main_v5_1) = (dat1 (ent1 m) c).arrAt 4 cfg1.N := by
  unfold val4; exact Function.update_self ..
theorem val4_v5_0 (c : Dev nD) : val4 m c (Proc.devRef .tc main_v5_0) = (dat1 (ent1 m) c).arrAt 3 cfg1.N := by
  unfold val4
  rw [Function.update_of_ne (StableHlo.devRef_ne_of_ne (by decide) : (Proc.devRef .tc main_v5_0 : DevRef τ sig) ≠ Proc.devRef .tc main_v5_1)]
  exact Function.update_self ..
theorem val4_of_ne (c : Dev nD) (b : Ref sig .tc) (h0 : b ≠ main_v5_0) (h1 : b ≠ main_v5_1) :
    val4 m c (Proc.devRef .tc b) = val3 m c (Proc.devRef .tc b) := by
  unfold val4
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
abbrev ext1 : (c : Dev nD) → (b : Ref sig .tc) → Buf (Elt F) ((c : Thread nD τ).loc b) := fun c b => val4 m c b

/-! ### The arguments end as launched: no host operation and no region writes one -/

theorem val1_of (c : Dev nD) (r : Ref sig .tc) (h : r ∉ hostOps0_W) : val1 m c (Proc.devRef .tc r) = val0 m c (Proc.devRef .tc r) :=
  StableHlo.after_of_writes_sub hostOps0 _ hostOps0_writes h
theorem val3_of (c : Dev nD) (r : Ref sig .tc) (h : r ∉ hostOps1_W) : val3 m c (Proc.devRef .tc r) = val2 m c (Proc.devRef .tc r) :=
  StableHlo.after_of_writes_sub hostOps1 _ hostOps1_writes h

theorem val4_main_arg0 (c : Dev nD) : val4 m c (Proc.devRef .tc main_arg0) = m ((c : Thread nD τ).loc main_arg0) :=
  (val4_of_ne m c main_arg0 (by decide) (by decide)).trans <| (val3_of m c main_arg0 (by decide)).trans <|
    (val2_of_ne m c main_arg0 (by decide)).trans <| (val1_of m c main_arg0 (by decide)).trans rfl
theorem val4_main_arg1 (c : Dev nD) : val4 m c (Proc.devRef .tc main_arg1) = m ((c : Thread nD τ).loc main_arg1) :=
  (val4_of_ne m c main_arg1 (by decide) (by decide)).trans <| (val3_of m c main_arg1 (by decide)).trans <|
    (val2_of_ne m c main_arg1 (by decide)).trans <| (val1_of m c main_arg1 (by decide)).trans rfl
theorem val4_main_arg2 (c : Dev nD) : val4 m c (Proc.devRef .tc main_arg2) = m ((c : Thread nD τ).loc main_arg2) :=
  (val4_of_ne m c main_arg2 (by decide) (by decide)).trans <| (val3_of m c main_arg2 (by decide)).trans <|
    ((val2_arr m c 2).trans (((dat0 (ent0 m) c).arrAt_in 2 rfl _).trans (A_eq0 (ent0 m) c 2))).trans <|
    (val1_of m c main_arg2 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (val4 m c) ∗ ∃ r, prngReg c r)

/-! ## The regions as segments -/

set_option backward.isDefEq.respectTransparency.types false in
/-- The projection region: entered from every unscoped buffer at `val1`, left at `val2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (val1 m c) ∗ R c)
  post c := iprop(StableHlo.held (c : Thread nD τ) (Pipeline.ucRefs τ sig) (val2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `val3`, left at `val4`; the projection array goes in
    dealt in three parts and comes back whole. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (val3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := entry1 (ent1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hkeep : ∀ w : Fin cfg1.W, (cfg1.win w).isOut = false →
        (dat1 (ent1 m) c).arrAt w cfg1.N = ent1 m c (Pipeline.arrRef spec1 w) :=
      fun w hw => ((dat1 (ent1 m) c).arrAt_in w hw _).trans (A_eq1 (ent1 m) c w)
    have hv4 : ext1 m c main_v4 = ent1 m c main_v4 := val4_of_ne m c main_v4 (by decide) (by decide)
    have hjoin := exit1 (ent1 m) c (ext1 m c) ((dat1 (ent1 m) c).arrAt · cfg1.N)
      ((hkeep 0 rfl).trans hv4.symm) ((hkeep 1 rfl).trans hv4.symm) ((hkeep 2 rfl).trans hv4.symm)
      (val4_v5_0 m c).symm (val4_v5_1 m c).symm
      (fun b hb => val4_of_ne m c b
        (fun e => hb (Finset.mem_image.mpr ⟨3, Finset.mem_univ _, e.symm⟩))
        (fun e => hb (Finset.mem_image.mpr ⟨4, Finset.mem_univ _, e.symm⟩)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (val0 m)),
    .region (reg0 m),
    .host (hseg hostOps1 hostOps1_sub hostOps1_fresh (val2 m)),
    .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has the two results at the last boundary's contents and the three arguments as launched. -/
theorem run_main : θ_run defs (onTc (τ := τ) (main (F := F))) ⟨m, fun _ => 0, ρ⟩ (fun r => ∀ c : Dev nD,
      r.2.mem ((c.tc : Thread nD τ).loc main_v5_0) = (dat1 (ent1 m) c).arrAt 3 cfg1.N
      ∧ r.2.mem ((c.tc : Thread nD τ).loc main_v5_1) = (dat1 (ent1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (val0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (val0 m c)
        from Pipeline.unscopedBufs_held c (val0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = val4 m c b)
    (hfin := fun c s' => by
      iintro ⟨⟨Hh, -⟩, HSI⟩
      unfold StableHlo.held
      imodintro
      iapply (pointsTo_read_all (Pipeline.ucRefs τ sig) (fun b => (((c : Thread nD τ)).1, b)) (val4 m c) s')
      isplitl [Hh] <;> iassumption)
    (hQ := fun s h c =>
      ⟨(h c _ (mem_uc main_v5_0 (by decide))).trans (val4_v5_0 m c),
       (h c _ (mem_uc main_v5_1 (by decide))).trans (val4_v5_1 m c),
       (h c _ (mem_uc main_arg0 (by decide))).trans (val4_main_arg0 m c),
       (h c _ (mem_uc main_arg1 (by decide))).trans (val4_main_arg1 m c),
       (h c _ (mem_uc main_arg2 (by decide))).trans (val4_main_arg2 m c)⟩)

end Cert.KernelIdeal.Hand

end
-- ==== Proof.LibSoftmaxRow.lean ====
/-
  A softmax row on the extended reals, in two spellings.

  A row of logits `x : Fin n → EReal` gives its maximum `rowMax x` (taken from −∞), the shifted exponentials
  `rowExp x c = exp (x c − rowMax x)` and their sum `rowSum x`.
  • Reciprocal spelling: each exponential times `1 / rowSum` (`attnK`), and a weighted sum of values scaled by `1 / rowSum`
    afterwards (`outK`).
  • Quotient spelling: each exponential divided by `0 + rowSum` (`attnR`), and the values weighted by the quotients (`outR`).
  The one and the zero are written as the f32 words a printed program carries (`0x3F800000`, `0x00000000`).
  Over a nonempty row of REAL logits the maximum is a real (`rowMax_coe`), every exponential a positive real and the sum a
  nonzero real (`row_real`), and the two spellings agree, for real values too (`attn_eq_of_real`, `out_eq_of_real`): division
  by a nonzero real is multiplication by its reciprocal, and a real factor moves across a finite sum.
  Also: the cast of a finite real sum is the sum of the casts (`coe_sum`), and the words of 1.0 and −∞ (`c_one`, `c_neginf`).
-/
import Idealize.ShloMosaic.PureOps.Ideal.Laws

noncomputable section

namespace Cert.LibSoftmaxRow

open Idealize.ShloMosaic

/-! ## Casts of finite sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The words of 1.0 and −∞ -/

theorem c_one : Ideal.ofBits .f32 0x3F800000#32 = 1 := by
  simp [Ideal.ofBits, Ideal.ieee, -EReal.coe_mul]; norm_num

theorem c_neginf : Ideal.ofBits .f32 0xFF800000#32 = ⊥ := by
  simp [Ideal.ofBits, Ideal.ieee]

variable {n : ℕ}

/-! ## The row's maximum, exponentials and sum -/

/-- The row's maximum, taken from −∞. -/
def rowMax (x : Fin n → EReal) : EReal := Finset.univ.fold max ⊥ x

/-- The exponential of a logit shifted by the row's maximum. -/
def rowExp (x : Fin n → EReal) (c : Fin n) : EReal := Ideal.exp (x c - rowMax x)

/-- The sum of the row's shifted exponentials. -/
def rowSum (x : Fin n → EReal) : EReal := ∑ c, rowExp x c

/-- The maximum of a nonempty row of reals is a real. -/
theorem rowMax_coe (hn : 0 < n) (x : Fin n → ℝ) : ∃ m : ℝ, rowMax (fun c => (x c : EReal)) = (m : EReal) := by
  have hlt : rowMax (fun c => (x c : EReal)) < ⊤ :=
    (Finset.fold_max_lt _).2 ⟨bot_lt_top, fun c _ => EReal.coe_lt_top _⟩
  have hgt : ⊥ < rowMax (fun c => (x c : EReal)) :=
    (Finset.lt_fold_max _).2 (Or.inr ⟨⟨0, hn⟩, Finset.mem_univ _, EReal.bot_lt_coe _⟩)
  exact ⟨(rowMax (fun c => (x c : EReal))).toReal, (EReal.coe_toReal hlt.ne hgt.ne').symm⟩

/-- Over a nonempty real row: every shifted exponential is a real, and their sum is a nonzero real. -/
theorem row_real (hn : 0 < n) (x : Fin n → ℝ) :
    ∃ (E : Fin n → ℝ) (L : ℝ), L ≠ 0 ∧ (∀ c, rowExp (fun c => (x c : EReal)) c = (E c : EReal))
      ∧ rowSum (fun c => (x c : EReal)) = (L : EReal) := by
  obtain ⟨m, hm⟩ := rowMax_coe hn x
  have hE : ∀ c, rowExp (fun c => (x c : EReal)) c = ((Real.exp (x c - m) : ℝ) : EReal) := fun c => by
    unfold rowExp
    rw [hm, ← EReal.coe_sub, Ideal.exp_coe]
  refine ⟨fun c => Real.exp (x c - m), ∑ c, Real.exp (x c - m), ?_, hE, ?_⟩
  · have : 0 < ∑ c : Fin n, Real.exp (x c - m) :=
      Finset.sum_pos (fun c _ => Real.exp_pos _) ⟨⟨0, hn⟩, Finset.mem_univ _⟩
    exact this.ne'
  · unfold rowSum
    rw [coe_sum]
    exact Finset.sum_congr rfl fun c _ => hE c

/-! ## The two spellings of the softmax row and of the output -/

/-- Each exponential times the reciprocal of the row's sum. -/
def attnK (x : Fin n → EReal) (c : Fin n) : EReal :=
  rowExp x c * Ideal.div (Ideal.ofBits .f32 0x3F800000#32) (rowSum x)

/-- The value rows weighted by the exponentials, scaled by the reciprocal of the row's sum afterwards. -/
def outK (x v : Fin n → EReal) : EReal :=
  (∑ c, rowExp x c * v c) * Ideal.div (Ideal.ofBits .f32 0x3F800000#32) (rowSum x)

/-- Each exponential divided by the row's sum (the sum started from zero). -/
def attnR (x : Fin n → EReal) (c : Fin n) : EReal :=
  Ideal.div (rowExp x c) (Ideal.ofBits .f32 0x00000000#32 + rowSum x)

/-- The value rows weighted by the quotients. -/
def outR (x v : Fin n → EReal) : EReal := ∑ c, attnR x c * v c

theorem attn_eq_of_real (hn : 0 < n) (x : Fin n → ℝ) (c : Fin n) :
    attnK (fun c => (x c : EReal)) c = attnR (fun c => (x c : EReal)) c := by
  obtain ⟨E, L, hL, hE, hS⟩ := row_real hn x
  unfold attnK attnR
  rw [hS, hE c, Ideal.ofBits_zero_f32, zero_add, c_one, Ideal.div_coe hL, Ideal.div_coe hL, one_mul]

theorem out_eq_of_real (hn : 0 < n) (x v : Fin n → ℝ) :
    outK (fun c => (x c : EReal)) (fun c => (v c : EReal)) = outR (fun c => (x c : EReal)) (fun c => (v c : EReal)) := by
  obtain ⟨E, L, hL, hE, hS⟩ := row_real hn x
  unfold outK outR attnR
  rw [hS, Ideal.ofBits_zero_f32, zero_add, c_one, Ideal.div_coe hL, one_mul]
  have h1 : (∑ c, rowExp (fun c => (x c : EReal)) c * (v c : EReal)) = ((∑ c, E c * v c : ℝ) : EReal) := by
    rw [coe_sum]
    exact Finset.sum_congr rfl fun c _ => by rw [hE c, EReal.coe_mul]
  have h2 : (∑ c, Ideal.div (rowExp (fun c => (x c : EReal)) c) (L : EReal) * (v c : EReal))
      = ((∑ c, E c * (1 / L) * v c : ℝ) : EReal) := by
    rw [coe_sum]
    exact Finset.sum_congr rfl fun c _ => by rw [hE c, Ideal.div_coe hL, EReal.coe_mul, EReal.coe_mul]
  rw [h1, h2, ← EReal.coe_mul, Finset.sum_mul]
  congr 1
  exact Finset.sum_congr rfl fun c _ => by ring

end Cert.LibSoftmaxRow

end
-- ==== Proof.Spec.lean ====
/-
  The mathematics both programs compute, stated once over the extended reals.

  From X : [4, 2048, 1024], W : [3072, 1024] and b : [3072] the fused projection is
      Q[n, s, f] = Σ_e X[n, s, e] · W[f, e] + b[f]                      (f < 3072),
  whose last axis holds three blocks of 1024 columns: queries (columns 0 …), keys (columns 1024 …) and values
  (columns 2048 …). For a batch n and a query row q the logits over the key rows k are
      Σ_e Q[n, q, e] · Q[n, k, 1024 + e]   scaled by 1/32,
  written either as a product with 2⁻⁵ or as a quotient by 32; a softmax row over the logits gives the attention
  weights, and the output is the weights applied to the value rows Q[n, k, 2048 + e].
  The softmax row itself (maximum from −∞, shifted exponentials, their sum, and its two spellings — times the
  reciprocal of the sum, or divided by the sum) is the row library's.
-/
import Idealize.ShloMosaic.PureOps.Ideal.Laws
import Idealize.ShloMosaic.Lib.ValueIdx
import proofs.«106196_j64544768524377_2_alg».proof.Proof.LibSoftmaxRow

noncomputable section

namespace Cert.Attn

open Idealize.ShloMosaic Idealize.ShloMosaic.ValueIdx Cert.LibSoftmaxRow

/-- X's shape, also the output's. -/
abbrev SX : Shape := ⟨3, ![4, 2048, 1024]⟩
abbrev SW : Shape := ⟨2, ![3072, 1024]⟩
abbrev Sb : Shape := ⟨1, ![3072]⟩
/-- The projection's shape. -/
abbrev SQ : Shape := ⟨3, ![4, 2048, 3072]⟩
/-- The attention weights' shape. -/
abbrev SA : Shape := ⟨3, ![4, 2048, 2048]⟩

/-- Column e of the query block, of the key block, of the value block of the projection's last axis. -/
def colQ (e : Fin 1024) : Fin 3072 := ⟨e.val, by omega⟩
def colK (e : Fin 1024) : Fin 3072 := ⟨1024 + e.val, by omega⟩
def colV (e : Fin 1024) : Fin 3072 := ⟨2048 + e.val, by omega⟩

/-- One entry of the projection. -/
def qkvAt (X : SX.Idx → EReal) (W : SW.Idx → EReal) (b : Sb.Idx → EReal) (n : Fin 4) (s : Fin 2048) (f : Fin 3072) : EReal :=
  (∑ e : Fin 1024, X (ix3 n s e) * W (ix2 f e)) + b (ix1 f)

/-- The projection as an array. -/
def qkv (X : SX.Idx → EReal) (W : SW.Idx → EReal) (b : Sb.Idx → EReal) : SQ.Idx → EReal :=
  fun i => qkvAt X W b (i 0) (i 1) (i 2)

theorem qkv_ix3 (X : SX.Idx → EReal) (W : SW.Idx → EReal) (b : Sb.Idx → EReal) (n : Fin 4) (s : Fin 2048) (f : Fin 3072) :
    qkv X W b (ix3 n s f) = qkvAt X W b n s f := rfl

/-- The unscaled logit of query row q against key row k in batch n. -/
def dotQK (Q : SQ.Idx → EReal) (n : Fin 4) (q k : Fin 2048) : EReal :=
  ∑ e : Fin 1024, Q (ix3 n q (colQ e)) * Q (ix3 n k (colK e))

/-- The logits of a query row, scaled by the product with 2⁻⁵ (the f32 word 0x3D000000). -/
def logitK (Q : SQ.Idx → EReal) (n : Fin 4) (q : Fin 2048) : Fin 2048 → EReal :=
  fun k => dotQK Q n q k * Ideal.ofBits .f32 0x3D000000#32

/-- The logits of a query row, scaled by the quotient by 32 (the f32 word 0x42000000). -/
def logitR (Q : SQ.Idx → EReal) (n : Fin 4) (q : Fin 2048) : Fin 2048 → EReal :=
  fun k => Ideal.div (dotQK Q n q k) (Ideal.ofBits .f32 0x42000000#32)

/-- Attention weights and output, reciprocal spelling over product-scaled logits. -/
def attnKAt (Q : SQ.Idx → EReal) (n : Fin 4) (q k : Fin 2048) : EReal := attnK (logitK Q n q) k
def outKAt (Q : SQ.Idx → EReal) (n : Fin 4) (q : Fin 2048) (e : Fin 1024) : EReal :=
  ∑ k : Fin 2048, attnK (logitK Q n q) k * Q (ix3 n k (colV e))
def attnKer (Q : SQ.Idx → EReal) : SA.Idx → EReal := fun i => attnKAt Q (i 0) (i 1) (i 2)
def outKer (Q : SQ.Idx → EReal) : SX.Idx → EReal := fun i => outKAt Q (i 0) (i 1) (i 2)

/-- Attention weights and output, quotient spelling over quotient-scaled logits. -/
def attnRAt (Q : SQ.Idx → EReal) (n : Fin 4) (q k : Fin 2048) : EReal := attnR (logitR Q n q) k
def outRAt (Q : SQ.Idx → EReal) (n : Fin 4) (q : Fin 2048) (e : Fin 1024) : EReal :=
  ∑ k : Fin 2048, attnR (logitR Q n q) k * Q (ix3 n k (colV e))
def attnRef (Q : SQ.Idx → EReal) : SA.Idx → EReal := fun i => attnRAt Q (i 0) (i 1) (i 2)
def outRef (Q : SQ.Idx → EReal) : SX.Idx → EReal := fun i => outRAt Q (i 0) (i 1) (i 2)

theorem attnKer_ix3 (Q : SQ.Idx → EReal) (n : Fin 4) (q k : Fin 2048) : attnKer Q (ix3 n q k) = attnKAt Q n q k := rfl
theorem outKer_ix3 (Q : SQ.Idx → EReal) (n : Fin 4) (q : Fin 2048) (e : Fin 1024) : outKer Q (ix3 n q e) = outKAt Q n q e := rfl
theorem attnRef_ix3 (Q : SQ.Idx → EReal) (n : Fin 4) (q k : Fin 2048) : attnRef Q (ix3 n q k) = attnRAt Q n q k := rfl
theorem outRef_ix3 (Q : SQ.Idx → EReal) (n : Fin 4) (q : Fin 2048) (e : Fin 1024) : outRef Q (ix3 n q e) = outRAt Q n q e := rfl

end Cert.Attn

end
-- ==== Proof.KiValue0.lean ====
/-
  From blocks to the array, first region (the fused projection).

  Grid point t of the sixteen loads rows 512·t … 512·t + 511 of the flattened input, the whole transposed weight and the
  whole bias, and writes back rows 512·t … of the projection's array: the body's arithmetic of the three loaded blocks.
  Given that arithmetic entry by entry (row p of the input block against column f of the weight block, plus the bias at
  f), what point t writes back is block t of ONE function of the three arrays — row r against column f plus the bias —
  because an element of a block sits in its array at block index × block size + its coordinate inside the block, and
  the sixteen row blocks cover the array (row r is in the block of the point r / 512). So after the region the array
  holds that function.
-/
import proofs.«106196_j64544768524377_2_alg».proof.Proof.KiBody0
import proofs.«106196_j64544768524377_2_alg».proof.Proof.Spec
import Idealize.ShloMosaic.Lib.Pipeline.Value

set_option maxRecDepth 16384

noncomputable section

namespace Cert.Attn.KVal

open Cert.KernelIdeal Cert.KernelIdeal.Gen Cert.KernelIdeal.Hand Cert.Attn Cert.LibSoftmaxRow
open Idealize.ShloMosaic Idealize.ShloMosaic.ValueIdx Idealize.ShloMosaic.TcCoe Idealize.SL.Sem
open Idealize.ShloMosaic.Pipeline (Dat)

/-- The first region's whole-array function: row r of x against column f of w, plus the bias. -/
def projK (x : S8192x1024.Idx → EReal) (w : S1024x3072.Idx → EReal) (b : S3072.Idx → EReal) : S8192x3072.Idx → EReal :=
  fun i => (∑ e : Fin 1024, x (ix2 (i 0) e) * w (ix2 e (i 1))) + b (ix1 (i 1))

/-- Zero offsets on two axes, however spelt. -/
theorem zeros2 : (![0, 0] : Fin 2 → Nat) = fun _ => 0 := funext fun a => by fin_cases a <;> rfl
/-- Zero offsets on one axis, however spelt. -/
theorem zeros1 : (![0] : Fin 1 → Nat) = fun _ => 0 := funext fun a => by fin_cases a <;> rfl

/-- The block index maps over the grid: at point t the input rows' block and the output's block are block t of their
arrays' rows; the weight's and the bias's blocks are their whole arrays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of a block of the projection: when the three loaded blocks hold, where the entry needs them, the entries
of the three arrays at the array index i. -/
theorem proj_block (X : S8192x1024.Idx → EReal) (W : S1024x3072.Idx → EReal) (B : S3072.Idx → EReal)
    (x0 : S512x1024.Idx → EReal) (x1 : S1024x3072.Idx → EReal) (x2 : S3072.Idx → EReal)
    (i : S8192x3072.Idx) (p : Fin 512) (f : Fin 3072)
    (h0 : ∀ e : Fin 1024, x0 (ix2 p e) = X (ix2 (i 0) e))
    (h1 : ∀ e : Fin 1024, x1 (ix2 e f) = W (ix2 e (i 1)))
    (h2 : x2 (ix1 f) = B (ix1 (i 1))) :
    (∑ e : Fin 1024, x0 (ix2 p e) * x1 (ix2 e f)) + x2 (ix1 f) = projK X W B i := by
  unfold projK
  rw [h2]
  congr 1
  exact Finset.sum_congr rfl fun e _ => by rw [h0, h1]

/-- One entry of the body's block of the projection, as the whole-array function at the array index i, when the three
loaded blocks hold, where the entry needs them, the arrays' entries at i's row and column. -/
theorem block_entry
    (hpay0 : ∀ (v0 : Vec Ideal S512x1024 .f32) (v3 : Vec Ideal S1024x3072 .bf16) (v6 : Vec Ideal S3072 .f32) (p : Fin 512) (f : Fin 3072),
      k0_pay1 (F := Ideal) v0 v3 v6 (ix2 p f) = (∑ e : Fin 1024, v0 (ix2 p e) * v3 (ix2 e f)) + v6 (ix1 f))
    (x0 : Vec Ideal S512x1024 .f32) (x1 : Vec Ideal S1024x3072 .bf16) (x2 : Vec Ideal S3072 .f32)
    (X : S8192x1024.Idx → EReal) (W : S1024x3072.Idx → EReal) (B : S3072.Idx → EReal)
    (i : S8192x3072.Idx) (j : S512x3072.Idx)
    (h0 : ∀ e : Fin 1024, x0 (ix2 (j 0) e) = X (ix2 (i 0) e))
    (h1 : ∀ e : Fin 1024, x1 (ix2 e (j 1)) = W (ix2 e (i 1)))
    (h2 : x2 (ix1 (j 1)) = B (ix1 (i 1))) :
    k0_pay1 (F := Ideal) x0 x1 x2 j = projK X W B i := by
  obtain ⟨p, f, rfl⟩ : ∃ (p : Fin 512) (f : Fin 3072), j = ix2 p f := ⟨j 0, j 1, eq_ix2 j⟩
  rw [hpay0]
  exact proj_block X W B x0 x1 x2 i p f h0 h1 h2

variable (V : (c : Dev nD) → (b : Ref sig .tc) → Buf (Elt Ideal) ((c : Thread nD τ).loc b))

/-- What point t writes back is block t of the whole-array function of the three arrays as the region finds them. -/
theorem flushed0_eq (c : Dev nD)
    (hpay0 : ∀ (v0 : Vec Ideal S512x1024 .f32) (v3 : Vec Ideal S1024x3072 .bf16) (v6 : Vec Ideal S3072 .f32) (p : Fin 512) (f : Fin 3072),
      k0_pay1 (F := Ideal) v0 v3 v6 (ix2 p f) = (∑ e : Fin 1024, v0 (ix2 p e) * v3 (ix2 e f)) + v6 (ix1 f))
    (t : Fin cfg0.N) :
    (dat0 (F := Ideal) V c).flushed 3 t
      = ((cfg0.win 3).blk t).view.read (Elt Ideal) (projK (V c main_v0) (V c main_v2) (V c main_arg2)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S1024x3072) zeros2, View.ld_unit_zero (S := S3072) zeros1]
  funext j
  obtain ⟨e00, e01, e10, e11, e20, e30, e31⟩ := idx0 t
  show k0_pay1 (F := Ideal) (iblk0 V c 0 t) (iblk0 V c 1 t) (iblk0 V c 2 t) j
    = projK (V c main_v0) (V c main_v2) (V c main_arg2) (((cfg0.win 3).blk t).view.emb j)
  refine block_entry hpay0 (iblk0 V c 0 t) (iblk0 V c 1 t) (iblk0 V c 2 t) (V c main_v0) (V c main_v2) (V c main_arg2)
    (((cfg0.win 3).blk t).view.emb j) j (fun e => ?_) (fun e => ?_) ?_
  · show V c main_v0 (((cfg0.win 0).blk t).view.emb (ix2 (j 0) e)) = V c main_v0 (ix2 ((((cfg0.win 3).blk t).view.emb j) 0) e)
    congr 1
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * e.val = e.val; omega
  · show V c main_v2 (((cfg0.win 1).blk t).view.emb (ix2 e (j 1))) = V c main_v2 (ix2 e ((((cfg0.win 3).blk t).view.emb j) 1))
    congr 1
    funext a; apply Fin.ext
    match a with
    | ⟨0, _⟩ => show win0_1.index t (0 : Fin 2) * 1024 + 1 * e.val = e.val; omega
    | ⟨1, _⟩ => show win0_1.index t (1 : Fin 2) * 3072 + 1 * (j 1).val = win0_3.index t (1 : Fin 2) * 3072 + 1 * (j 1).val; omega
  · show V c main_arg2 (((cfg0.win 2).blk t).view.emb (ix1 (j 1))) = V c main_arg2 (ix1 ((((cfg0.win 3).blk t).view.emb j) 1))
    congr 1
    funext a; apply Fin.ext
    match a with
    | ⟨0, _⟩ => show win0_2.index t (0 : Fin 1) * 3072 + 1 * (j 1).val = win0_3.index t (1 : Fin 2) * 3072 + 1 * (j 1).val; omega

/-- An index of the output array is in point t's block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- Every row block of the output is some point's. -/
theorem idx0_onto : ∀ q : Fin 16, ∃ t : Fin cfg0.N, win0_3.index t = ![q.val, 0] :=
  (by decide +kernel : ∀ q : Fin 16, ∃ t : Fin grid0.N, win0_3.index t = ![q.val, 0])

/-- The output's blocks cover it: row r is in the block of the point r / 512. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx0_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- After the first region the projection's array holds, entry by entry, row r of the input against column f of the
weight plus the bias. -/
theorem arr0 (c : Dev nD)
    (hpay0 : ∀ (v0 : Vec Ideal S512x1024 .f32) (v3 : Vec Ideal S1024x3072 .bf16) (v6 : Vec Ideal S3072 .f32) (p : Fin 512) (f : Fin 3072),
      k0_pay1 (F := Ideal) v0 v3 v6 (ix2 p f) = (∑ e : Fin 1024, v0 (ix2 p e) * v3 (ix2 e f)) + v6 (ix1 f)) :
    (dat0 (F := Ideal) V c).arrAt 3 cfg0.N = projK (V c main_v0) (V c main_v2) (V c main_arg2) :=
  (dat0 (F := Ideal) V c).arrAt_eq_of_cover 3 (projK (V c main_v0) (V c main_v2) (V c main_arg2))
    (fun t _ => flushed0_eq V c hpay0 t) cover0

end Cert.Attn.KVal

end
-- ==== Proof.KiValue1.lean ====
/-
  From blocks to the array, second region (the attention).

  Grid point t = (n, j) of the 4 × 8 loads from the projection's array three blocks of batch n — query rows 256·j … of the
  query columns, all key rows of the key columns (from column 1024), all key rows of the value columns (from column
  2048) — and writes back rows 256·j … of batch n of the output and of the attention weights: the body's arithmetic of the
  loaded blocks. Given that arithmetic entry by entry (a softmax row over the tile row's scaled logits, and that row
  applied to the value block), what point t writes back is block t of ONE function of the projection's array — the
  attention weights, the output — because an element of a block sits in its array at block index × block size + its
  coordinate inside the block, and the 32 blocks cover each array (batch n, row r is in the block of the point
  (n, r / 256)). So after the region the two arrays hold those functions.
-/
import proofs.«106196_j64544768524377_2_alg».proof.Proof.KiBody1
import proofs.«106196_j64544768524377_2_alg».proof.Proof.Spec
import Idealize.ShloMosaic.Lib.Pipeline.Value

set_option maxRecDepth 16384

noncomputable section

namespace Cert.Attn.KVal

open Cert.KernelIdeal Cert.KernelIdeal.Gen Cert.KernelIdeal.Hand Cert.Attn Cert.LibSoftmaxRow
open Idealize.ShloMosaic Idealize.ShloMosaic.ValueIdx Idealize.ShloMosaic.TcCoe Idealize.SL.Sem
open Idealize.ShloMosaic.Pipeline (Dat)

/-- The logits of tile row p: the query block's row p against every row of the key block, scaled by 2⁻⁵. -/
def tileLogit' (v0 : Vec Ideal S1x256x1024 .bf16) (v2 : Vec Ideal S1x2048x1024 .bf16) (p : Fin 256) : Fin 2048 → EReal :=
  fun k' => (∑ e : Fin 1024, v0 (ix3 (0 : Fin 1) p e) * v2 (ix3 (0 : Fin 1) k' e)) * Ideal.ofBits .f32 0x3D000000#32

/-- Zero offsets on three axes, however spelt. -/
theorem zeros3 : (![0, 0, 0] : Fin 3 → Nat) = fun _ => 0 := funext fun a => by fin_cases a <;> rfl

/-- The block index maps over the grid: the query block and the two output blocks sit at one and the same batch and row
block, at column block 0; the key and the value block sit at the same batch, row block 0, column blocks 1 and 2. -/
theorem idx1 : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 1
    ∧ win1_2.index t (0 : Fin 3) = win1_4.index t (0 : Fin 3) ∧ win1_2.index t (1 : Fin 3) = 0 ∧ win1_2.index t (2 : Fin 3) = 2
    ∧ win1_3.index t (0 : Fin 3) = win1_4.index t (0 : Fin 3) ∧ win1_3.index t (1 : Fin 3) = win1_4.index t (1 : Fin 3)
    ∧ win1_3.index t (2 : Fin 3) = 0 ∧ win1_4.index t (2 : Fin 3) = 0
    ∧ win1_4.index t (0 : Fin 3) ≤ 3 ∧ win1_4.index t (1 : Fin 3) ≤ 7 :=
  (by decide +kernel : ∀ t : Fin grid1.N, _)

/-- Every block of the attention weights' array is some point's. -/
theorem idx1_onto4 : ∀ (q0 : Fin 4) (q1 : Fin 8), ∃ t : Fin cfg1.N, win1_4.index t = ![q0.val, q1.val, 0] :=
  (by decide +kernel : ∀ (q0 : Fin 4) (q1 : Fin 8), ∃ t : Fin grid1.N, win1_4.index t = ![q0.val, q1.val, 0])

/-- Every block of the output's array is some point's. -/
theorem idx1_onto3 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- The tile row's logits are the array's logit row of batch n, query row q, when the query block's row is the array's
query row and the key block is batch n's key rows. -/
theorem tileLogit_eq (x0 : Vec Ideal S1x256x1024 .bf16) (x1 : Vec Ideal S1x2048x1024 .bf16) (Q : SQ.Idx → EReal)
    (n : Fin 4) (q : Fin 2048) (p : Fin 256)
    (h0 : ∀ e : Fin 1024, x0 (ix3 (0 : Fin 1) p e) = Q (ix3 n q (colQ e)))
    (h1 : ∀ (k' : Fin 2048) (e : Fin 1024), x1 (ix3 (0 : Fin 1) k' e) = Q (ix3 n k' (colK e))) :
    tileLogit' x0 x1 p = logitK Q n q := by
  funext k'
  unfold tileLogit' logitK dotQK
  congr 1
  exact Finset.sum_congr rfl fun e _ => by rw [h0 e, h1 k' e]

/-- One entry of the body's block of attention weights, as the whole-array function at the array index i. -/
theorem attn_block_entry
    (hpay2 : ∀ (v0 : Vec Ideal S1x256x1024 .bf16) (v2 : Vec Ideal S1x2048x1024 .bf16) (u : Fin 1) (p : Fin 256) (k : Fin 2048),
      k1_pay2 (F := Ideal) v0 v2 (ix3 u p k) = attnK (tileLogit' v0 v2 p) k)
    (x0 : Vec Ideal S1x256x1024 .bf16) (x1 : Vec Ideal S1x2048x1024 .bf16) (Q : SQ.Idx → EReal)
    (i : S4x2048x2048.Idx) (j : S1x256x2048.Idx)
    (h0 : ∀ e : Fin 1024, x0 (ix3 (0 : Fin 1) (j 1) e) = Q (ix3 (i 0) (i 1) (colQ e)))
    (h1 : ∀ (k' : Fin 2048) (e : Fin 1024), x1 (ix3 (0 : Fin 1) k' e) = Q (ix3 (i 0) k' (colK e)))
    (hk : j 2 = i 2) :
    k1_pay2 (F := Ideal) x0 x1 j = attnKer Q i := by
  obtain ⟨u, p, k, rfl⟩ : ∃ (u : Fin 1) (p : Fin 256) (k : Fin 2048), j = ix3 u p k := ⟨j 0, j 1, j 2, eq_ix3 j⟩
  rw [hpay2]
  show attnK (tileLogit' x0 x1 p) k = attnK (logitK Q (i 0) (i 1)) (i 2)
  exact congr (congrArg attnK (tileLogit_eq x0 x1 Q (i 0) (i 1) p h0 h1)) hk

/-- One entry of the body's block of the output, as the whole-array function at the array index i. -/
theorem out_block_entry
    (hpay3 : ∀ (v0 : Vec Ideal S1x256x1024 .bf16) (v2 v4 : Vec Ideal S1x2048x1024 .bf16) (u : Fin 1) (p : Fin 256) (e : Fin 1024),
      k1_pay3 (F := Ideal) v0 v2 v4 (ix3 u p e) = ∑ k : Fin 2048, attnK (tileLogit' v0 v2 p) k * v4 (ix3 (0 : Fin 1) k e))
    (x0 : Vec Ideal S1x256x1024 .bf16) (x1 x2 : Vec Ideal S1x2048x1024 .bf16) (Q : SQ.Idx → EReal)
    (i : S4x2048x1024.Idx) (j : S1x256x1024.Idx)
    (h0 : ∀ e : Fin 1024, x0 (ix3 (0 : Fin 1) (j 1) e) = Q (ix3 (i 0) (i 1) (colQ e)))
    (h1 : ∀ (k' : Fin 2048) (e : Fin 1024), x1 (ix3 (0 : Fin 1) k' e) = Q (ix3 (i 0) k' (colK e)))
    (h2 : ∀ k : Fin 2048, x2 (ix3 (0 : Fin 1) k (j 2)) = Q (ix3 (i 0) k (colV (i 2)))) :
    k1_pay3 (F := Ideal) x0 x1 x2 j = outKer Q i := by
  obtain ⟨u, p, e, rfl⟩ : ∃ (u : Fin 1) (p : Fin 256) (e : Fin 1024), j = ix3 u p e := ⟨j 0, j 1, j 2, eq_ix3 j⟩
  rw [hpay3]
  show (∑ k : Fin 2048, attnK (tileLogit' x0 x1 p) k * x2 (ix3 (0 : Fin 1) k e))
    = ∑ k : Fin 2048, attnK (logitK Q (i 0) (i 1)) k * Q (ix3 (i 0) k (colV (i 2)))
  rw [tileLogit_eq x0 x1 Q (i 0) (i 1) p h0 h1]
  exact Finset.sum_congr rfl fun k _ => by rw [h2 k]

variable (V : (c : Dev nD) → (b : Ref sig .tc) → Buf (Elt Ideal) ((c : Thread nD τ).loc b))

/-- What point t writes back to the attention weights' array is block t of the attention weights of the projection's
array as the region finds it. -/
theorem flushed1_4_eq (c : Dev nD)
    (hpay2 : ∀ (v0 : Vec Ideal S1x256x1024 .bf16) (v2 : Vec Ideal S1x2048x1024 .bf16) (u : Fin 1) (p : Fin 256) (k : Fin 2048),
      k1_pay2 (F := Ideal) v0 v2 (ix3 u p k) = attnK (tileLogit' v0 v2 p) k)
    (t : Fin cfg1.N) :
    (dat1 (F := Ideal) V c).flushed 4 t = ((cfg1.win 4).blk t).view.read (Elt Ideal) (attnKer (V c main_v4)) := by
  show (cfg1.win 4).cut (grid1.coords t) ((dat1 V c).after 4 t) = _
  rw [after1_4]
  unfold out1_4
  rw [View.canon_unit_zero zeros3]
  simp only [View.ld_unit_zero (S := S1x256x1024) zeros3, View.ld_unit_zero (S := S1x2048x1024) zeros3]
  funext j
  obtain ⟨a00, a01, a02, a10, a11, a12, a20, a21, a22, a30, a31, a32, a42, b0, b1⟩ := idx1 t
  have hj0 : (j 0).val < 1 := (j 0).isLt
  show k1_pay2 (F := Ideal) (iblk1 V c 0 t) (iblk1 V c 1 t) j = attnKer (V c main_v4) (((cfg1.win 4).blk t).view.emb j)
  refine attn_block_entry hpay2 (iblk1 V c 0 t) (iblk1 V c 1 t) (V c main_v4) (((cfg1.win 4).blk t).view.emb j) j
    (fun e => ?_) (fun k' e => ?_) ?_
  · show V c main_v4 (((cfg1.win 0).blk t).view.emb (ix3 (0 : Fin 1) (j 1) e))
      = V c main_v4 (ix3 ((((cfg1.win 4).blk t).view.emb j) 0) ((((cfg1.win 4).blk t).view.emb j) 1) (colQ e))
    congr 1
    funext a; apply Fin.ext
    match a with
    | ⟨0, _⟩ => show win1_0.index t (0 : Fin 3) * 1 + 1 * 0 = win1_4.index t (0 : Fin 3) * 1 + 1 * (j 0).val; omega
    | ⟨1, _⟩ => show win1_0.index t (1 : Fin 3) * 256 + 1 * (j 1).val = win1_4.index t (1 : Fin 3) * 256 + 1 * (j 1).val; omega
    | ⟨2, _⟩ => show win1_0.index t (2 : Fin 3) * 1024 + 1 * e.val = e.val; omega
  · show V c main_v4 (((cfg1.win 1).blk t).view.emb (ix3 (0 : Fin 1) k' e))
      = V c main_v4 (ix3 ((((cfg1.win 4).blk t).view.emb j) 0) k' (colK e))
    congr 1
    funext a; apply Fin.ext
    match a with
    | ⟨0, _⟩ => show win1_1.index t (0 : Fin 3) * 1 + 1 * 0 = win1_4.index t (0 : Fin 3) * 1 + 1 * (j 0).val; omega
    | ⟨1, _⟩ => show win1_1.index t (1 : Fin 3) * 2048 + 1 * k'.val = k'.val; omega
    | ⟨2, _⟩ => show win1_1.index t (2 : Fin 3) * 1024 + 1 * e.val = 1024 + e.val; omega
  · apply Fin.ext
    show (j 2).val = win1_4.index t (2 : Fin 3) * 2048 + 1 * (j 2).val
    omega

/-- What point t writes back to the output's array is block t of the output of the projection's array as the region
finds it. -/
theorem flushed1_3_eq (c : Dev nD)
    (hpay3 : ∀ (v0 : Vec Ideal S1x256x1024 .bf16) (v2 v4 : Vec Ideal S1x2048x1024 .bf16) (u : Fin 1) (p : Fin 256) (e : Fin 1024),
      k1_pay3 (F := Ideal) v0 v2 v4 (ix3 u p e) = ∑ k : Fin 2048, attnK (tileLogit' v0 v2 p) k * v4 (ix3 (0 : Fin 1) k e))
    (t : Fin cfg1.N) :
    (dat1 (F := Ideal) V c).flushed 3 t = ((cfg1.win 3).blk t).view.read (Elt Ideal) (outKer (V c main_v4)) := by
  show (cfg1.win 3).cut (grid1.coords t) ((dat1 V c).after 3 t) = _
  rw [after1_3]
  unfold out1_3
  rw [View.canon_unit_zero zeros3]
  simp only [View.ld_unit_zero (S := S1x256x1024) zeros3, View.ld_unit_zero (S := S1x2048x1024) zeros3]
  funext j
  obtain ⟨a00, a01, a02, a10, a11, a12, a20, a21, a22, a30, a31, a32, a42, b0, b1⟩ := idx1 t
  have hj0 : (j 0).val < 1 := (j 0).isLt
  show k1_pay3 (F := Ideal) (iblk1 V c 0 t) (iblk1 V c 1 t) (iblk1 V c 2 t) j = outKer (V c main_v4) (((cfg1.win 3).blk t).view.emb j)
  refine out_block_entry hpay3 (iblk1 V c 0 t) (iblk1 V c 1 t) (iblk1 V c 2 t) (V c main_v4) (((cfg1.win 3).blk t).view.emb j) j
    (fun e => ?_) (fun k' e => ?_) (fun k => ?_)
  · show V c main_v4 (((cfg1.win 0).blk t).view.emb (ix3 (0 : Fin 1) (j 1) e))
      = V c main_v4 (ix3 ((((cfg1.win 3).blk t).view.emb j) 0) ((((cfg1.win 3).blk t).view.emb j) 1) (colQ e))
    congr 1
    funext a; apply Fin.ext
    match a with
    | ⟨0, _⟩ => show win1_0.index t (0 : Fin 3) * 1 + 1 * 0 = win1_3.index t (0 : Fin 3) * 1 + 1 * (j 0).val; omega
    | ⟨1, _⟩ => show win1_0.index t (1 : Fin 3) * 256 + 1 * (j 1).val = win1_3.index t (1 : Fin 3) * 256 + 1 * (j 1).val; omega
    | ⟨2, _⟩ => show win1_0.index t (2 : Fin 3) * 1024 + 1 * e.val = e.val; omega
  · show V c main_v4 (((cfg1.win 1).blk t).view.emb (ix3 (0 : Fin 1) k' e))
      = V c main_v4 (ix3 ((((cfg1.win 3).blk t).view.emb j) 0) k' (colK e))
    congr 1
    funext a; apply Fin.ext
    match a with
    | ⟨0, _⟩ => show win1_1.index t (0 : Fin 3) * 1 + 1 * 0 = win1_3.index t (0 : Fin 3) * 1 + 1 * (j 0).val; omega
    | ⟨1, _⟩ => show win1_1.index t (1 : Fin 3) * 2048 + 1 * k'.val = k'.val; omega
    | ⟨2, _⟩ => show win1_1.index t (2 : Fin 3) * 1024 + 1 * e.val = 1024 + e.val; omega
  · show V c main_v4 (((cfg1.win 2).blk t).view.emb (ix3 (0 : Fin 1) k (j 2)))
      = V c main_v4 (ix3 ((((cfg1.win 3).blk t).view.emb j) 0) k (colV ((((cfg1.win 3).blk t).view.emb j) 2)))
    congr 1
    funext a; apply Fin.ext
    match a with
    | ⟨0, _⟩ => show win1_2.index t (0 : Fin 3) * 1 + 1 * 0 = win1_3.index t (0 : Fin 3) * 1 + 1 * (j 0).val; omega
    | ⟨1, _⟩ => show win1_2.index t (1 : Fin 3) * 2048 + 1 * k.val = k.val; omega
    | ⟨2, _⟩ => show win1_2.index t (2 : Fin 3) * 1024 + 1 * (j 2).val = 2048 + (win1_3.index t (2 : Fin 3) * 1024 + 1 * (j 2).val); omega

/-- An index of the attention weights' array is in point t's block iff each coordinate is in the block's range on its axis. -/
theorem mem_blk1_4 (t : Fin cfg1.N) (i : S4x2048x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v5_1).slice (win1_4.rect t)).set ↔ _
  rw [View.set_slice_whole, Rect.mem_set_unit]
  exact Iff.rfl

/-- An index of the output's array is in point t's block iff each coordinate is in the block's range on its axis. -/
theorem mem_blk1_3 (t : Fin cfg1.N) (i : S4x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v5_0).slice (win1_3.rect t)).set ↔ _
  rw [View.set_slice_whole, Rect.mem_set_unit]
  exact Iff.rfl

/-- The attention weights' blocks cover their array: batch n, row r is in the block of the point (n, r / 256). -/
theorem cover1_4 (i : S4x2048x2048.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 2048 := (i 2).isLt
  obtain ⟨t, ht⟩ := idx1_onto4 ⟨(i 0).val, by omega⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 2048 ≤ (i 2).val ∧ (i 2).val < win1_4.index t (2 : Fin 3) * 2048 + 2048; omega

/-- The output's blocks cover their array: batch n, row r is in the block of the point (n, r / 256). -/
theorem cover1_3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx1_onto3 ⟨(i 0).val, by omega⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- After the second region the attention weights' array holds the attention weights of the projection's array, in the
reciprocal spelling over product-scaled logits. -/
theorem arr1_attn (c : Dev nD)
    (hpay2 : ∀ (v0 : Vec Ideal S1x256x1024 .bf16) (v2 : Vec Ideal S1x2048x1024 .bf16) (u : Fin 1) (p : Fin 256) (k : Fin 2048),
      k1_pay2 (F := Ideal) v0 v2 (ix3 u p k) = attnK (tileLogit' v0 v2 p) k) :
    (dat1 (F := Ideal) V c).arrAt 4 cfg1.N = attnKer (V c main_v4) :=
  (dat1 (F := Ideal) V c).arrAt_eq_of_cover 4 (attnKer (V c main_v4)) (fun t _ => flushed1_4_eq V c hpay2 t) cover1_4

/-- After the second region the output's array holds the attention weights applied to the value rows of the projection's
array. -/
theorem arr1_out (c : Dev nD)
    (hpay3 : ∀ (v0 : Vec Ideal S1x256x1024 .bf16) (v2 v4 : Vec Ideal S1x2048x1024 .bf16) (u : Fin 1) (p : Fin 256) (e : Fin 1024),
      k1_pay3 (F := Ideal) v0 v2 v4 (ix3 u p e) = ∑ k : Fin 2048, attnK (tileLogit' v0 v2 p) k * v4 (ix3 (0 : Fin 1) k e)) :
    (dat1 (F := Ideal) V c).arrAt 3 cfg1.N = outKer (V c main_v4) :=
  (dat1 (F := Ideal) V c).arrAt_eq_of_cover 3 (outKer (V c main_v4)) (fun t _ => flushed1_3_eq V c hpay3 t) cover1_3

end Cert.Attn.KVal

end
-- ==== Proof.KiGlue.lean ====
/-
  The host operations around the two kernels, at the ideal values.

  Before the projection kernel the host flattens the input [4, 2048, 1024] to [8192, 1024] (row 2048·n + s holds
  (n, s)), transposes the weight matrix [3072, 1024] to [1024, 3072] and narrows it (the identity on the extended
  reals); after it the host splits the rows of the flat projection [8192, 3072] back into [4, 2048, 3072].
  First: what each host operation leaves in its result buffer, from any contents of the buffers. Then: a flat
  projection Σ_e x(r, e) · w(e, f) + b(f) of the flattened input and the transposed weights, split back, is the
  specification's projection Σ_e X(n, s, e) · W(f, e) + b(f).
-/
import proofs.«106196_j64544768524377_2_alg».proof.Proof.Gen.KernelIdeal.Launch
import proofs.«106196_j64544768524377_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.Attn.Glue

open Cert.KernelIdeal Cert.KernelIdeal.Gen Cert.Attn Idealize.ShloMosaic Idealize.ShloMosaic.ValueIdx
  Idealize.ShloMosaic.StableHlo Idealize.ShloMosaic.TcCoe

/-! ## What the host operations leave in the buffers -/

/-- After the first host operations the flattened-input buffer holds the input, its two leading axes merged in
    row-major order. -/
theorem after0_v0 (W : Valuation τ sig (Elt Ideal)) :
    StableHlo.after (hostOps0 (F := Ideal)) W (Proc.devRef .tc main_v0)
      = shapeCast S8192x1024 (W (Proc.devRef .tc main_arg0) : S4x2048x1024.Idx → EReal) shapeCasts_S4x2048x1024_S8192x1024 := by
  after_results
  rfl

/-- … the weight buffer holds the transposed weight matrix, narrowed. -/
theorem after0_v2 (W : Valuation τ sig (Elt Ideal)) :
    StableHlo.after (hostOps0 (F := Ideal)) W (Proc.devRef .tc main_v2)
      = (truncf .bf16 (transpose S1024x3072 [1, 0] (W (Proc.devRef .tc main_arg1) : FVec Ideal S3072x1024 .f32)
          transposes_S3072x1024_S1024x3072_1_0) bitsLt_bf16_f32 : FVec Ideal S1024x3072 .bf16) := by
  after_results

/-- … and the bias buffer is untouched. -/
theorem after0_arg2 (W : Valuation τ sig (Elt Ideal)) :
    StableHlo.after (hostOps0 (F := Ideal)) W (Proc.devRef .tc main_arg2) = W (Proc.devRef .tc main_arg2) := by
  after_results

/-- After the second host operation the projection buffer holds the flat projection, its row axis split in two in
    row-major order. -/
theorem after1_v4 (W : Valuation τ sig (Elt Ideal)) :
    StableHlo.after (hostOps1 (F := Ideal)) W (Proc.devRef .tc main_v4)
      = shapeCast S4x2048x3072 (W (Proc.devRef .tc main_v3) : S8192x3072.Idx → EReal) shapeCasts_S8192x3072_S4x2048x3072 := by
  after_results
  rfl

/-! ## The projection through the host operations -/

/-- The flat projection: at (r, f), Σ_e x(r, e) · w(e, f) + b(f). -/
def projK (x : S8192x1024.Idx → EReal) (w : S1024x3072.Idx → EReal) (b : S3072.Idx → EReal) : S8192x3072.Idx → EReal :=
  fun i => (∑ e : Fin 1024, x (ix2 (i 0) e) * w (ix2 e (i 1))) + b (ix1 (i 1))

/-- Row 2048·n + s of the flattened input is row (n, s) of the input. -/
theorem flatten_apply (X : S4x2048x1024.Idx → EReal) (n : Fin 4) (s : Fin 2048) (e : Fin 1024) (r : Fin 8192)
    (hr : r.val = 2048 * n.val + s.val) :
    shapeCast S8192x1024 X shapeCasts_S4x2048x1024_S8192x1024 (ix2 r e) = X (ix3 n s e) :=
  shapeCast_apply X _ _ _ (by
    rw [Shape.rowMajor_val_three, Shape.rowMajor_val_two]
    show (n.val * 2048 + s.val) * 1024 + e.val = r.val * 1024 + e.val
    rw [hr, Nat.mul_comm 2048 n.val])

/-- Entry (n, s, f) of the split array is entry (2048·n + s, f) of the flat one. -/
theorem split_apply (Y : S8192x3072.Idx → EReal) (n : Fin 4) (s : Fin 2048) (f : Fin 3072) (r : Fin 8192)
    (hr : r.val = 2048 * n.val + s.val) :
    shapeCast S4x2048x3072 Y shapeCasts_S8192x3072_S4x2048x3072 (ix3 n s f) = Y (ix2 r f) :=
  shapeCast_apply Y _ _ _ (by
    rw [Shape.rowMajor_val_three, Shape.rowMajor_val_two]
    show r.val * 3072 + f.val = (n.val * 2048 + s.val) * 3072 + f.val
    rw [hr, Nat.mul_comm 2048 n.val])

/-- The flat projection of the flattened input and the transposed, narrowed weights, split back into batches, is the
    specification's projection: entry (n, s, f) is Σ_e X(n, s, e) · W(f, e) + b(f). -/
theorem glue_qkv (X : S4x2048x1024.Idx → EReal) (Wt : S3072x1024.Idx → EReal) (b : S3072.Idx → EReal) :
    shapeCast S4x2048x3072
        (projK (shapeCast S8192x1024 X shapeCasts_S4x2048x1024_S8192x1024)
          (truncf .bf16 (transpose S1024x3072 [1, 0] (Wt : FVec Ideal S3072x1024 .f32) transposes_S3072x1024_S1024x3072_1_0)
            bitsLt_bf16_f32 : FVec Ideal S1024x3072 .bf16) b)
        shapeCasts_S8192x3072_S4x2048x3072
      = qkv X Wt b := by
  funext i
  obtain ⟨n, s, f, rfl⟩ : ∃ (n : Fin 4) (s : Fin 2048) (f : Fin 3072), i = ix3 n s f := ⟨i 0, i 1, i 2, eq_ix3 i⟩
  have hlt : 2048 * n.val + s.val < 8192 := by omega
  refine (split_apply _ n s f ⟨2048 * n.val + s.val, hlt⟩ rfl).trans ?_
  show (∑ e : Fin 1024, _ * _) + b (ix1 f) = (∑ e : Fin 1024, X (ix3 n s e) * Wt (ix2 f e)) + b (ix1 f)
  refine congrArg (· + b (ix1 f)) (Finset.sum_congr rfl fun e _ => congrArg₂ (· * ·) ?_ ?_)
  · exact flatten_apply X n s e ⟨2048 * n.val + s.val, hlt⟩ rfl
  · exact transpose_ix2_apply (Wt : S3072x1024.Idx → EReal) transposes_S3072x1024_S1024x3072_1_0 e f

end Cert.Attn.Glue

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSumContr.lean ====
/-
  A sum over the contraction index of a matrix product that contracts ONE axis, re-indexed by that axis's coordinate.

  A `tpu.matmul` or a host `dot_general` at the ideal values, read at an output index `j`, is a sum over the
  product's contraction index `q` of `l (lhsIdx j q) * r (rhsIdx j q)`. When one axis is contracted, `q` is just a
  coordinate `k : Fin n`; if at coordinate `k` the two operand indices are `L k` and `R k`, the sum is
  `Σ_k l (L k) * r (R k)` (any dimension numbers, any shapes, values in any commutative additive monoid with a product).
-/
import Idealize.ShloMosaic.Lib.ValueIdx

namespace Cert.LibSumContr

open Idealize.ShloMosaic Idealize.ShloMosaic.ValueIdx

/-- The sum over a one-axis contraction index is the sum over that axis's coordinate of the products of the two
    operands at the indices the coordinate selects. -/
theorem sum_contr {M : Type*} [AddCommMonoid M] [Mul M] {sl sr so : Shape} (D : DotDims sl sr so) (n : ℕ)
    (hr : D.contr.rank = 1) (hs : D.contr.size ⟨0, by omega⟩ = n) (l : sl.Idx → M) (r : sr.Idx → M) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hL k, hR k]

end Cert.LibSumContr
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Pay0.lean ====
/-
  The projection kernel's stored value read at an index, at the ideal values.

  The body takes the [512, 1024] activation tile, the [1024, 3072] weight tile and the [3072] bias, multiplies the two
  matrices into a zero accumulator and adds the bias spread over the rows. The narrowing casts are the identity on the
  extended reals, so at (p, f) the value is Σ_e x(p, e) · w(e, f) + b(f).
-/
import proofs.«106196_j64544768524377_2_alg».proof.Proof.Gen.KernelIdeal.Skeleton
import proofs.«106196_j64544768524377_2_alg».proof.Proof.LibSoftmaxRow
import proofs.«106196_j64544768524377_2_alg».proof.Proof.LibKeepdims
import proofs.«106196_j64544768524377_2_alg».proof.Proof.LibSumContr
import proofs.«106196_j64544768524377_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Cert.KernelIdeal Cert.KernelIdeal.Gen Cert.LibSoftmaxRow Idealize.ShloMosaic Idealize.ShloMosaic.ValueIdx

/-- The projection tile at (p, f): the sum over e of x(p, e) · w(e, f), plus the bias b(f). -/
theorem pay0_apply (v0 : Vec Ideal S512x1024 .f32) (v3 : Vec Ideal S1024x3072 .bf16) (v6 : Vec Ideal S3072 .f32)
    (p : Fin 512) (f : Fin 3072) :
    k0_pay1 (F := Ideal) v0 v3 v6 (ix2 p f) = (∑ e : Fin 1024, v0 (ix2 p e) * v3 (ix2 e f)) + v6 (ix1 f) := by
  have hm : FloatOps.matmul (DotDims.plain 512 1024 3072) none
        (truncf .bf16 (shapeCast S512x1024 v0 shapeCasts_S512x1024_S512x1024) bitsLt_bf16_f32 : FVec Ideal S512x1024 .bf16)
        (shapeCast S1024x3072 v3 shapeCasts_S1024x3072_S1024x3072 : FVec Ideal S1024x3072 .bf16)
        (constant S512x3072 .f32 0x00000000#32) (ix2 p f)
      = ∑ e : Fin 1024, v0 (ix2 p e) * v3 (ix2 e f) := by
    refine (matmul_plain_zero_apply 512 1024 3072 none _ _ p f).trans ?_
    rw [shapeCast_self, shapeCast_self]
    rfl
  have hb : broadcastTo S512x3072 (shapeCast S1x3072 v6 shapeCasts_S3072_S1x3072) broadcasts_S1x3072_S512x3072 (ix2 p f)
      = v6 (ix1 f) :=
    (broadcastTo_1b_ab_apply _ _ p f).trans (shapeCast_a_1a_apply v6 _ 0 f)
  exact congrArg₂ (· + ·) hm hb

end Cert.Attn.Pay

end
-- ==== Proof.Pay1.lean ====
/-
  The attention kernel's stored values read at an index, at the ideal values.

  One tile holds 256 query rows, all 2048 key rows and all 2048 value rows, each of 1024 features. The body contracts
  queries with keys over the features, scales by 2⁻⁵, takes each row's maximum from −∞, exponentiates the shifted
  logits, sums each row, multiplies every exponential by the reciprocal of its row's sum, and multiplies the weights
  with the value rows. Read at an index: the weight at (p, k) is the reciprocal spelling `attnK` of the softmax of the
  row of logits `tileLogit … p`, and the output at (p, e) is the sum over keys of weight times value.
-/
import proofs.«106196_j64544768524377_2_alg».proof.Proof.Gen.KernelIdeal.Skeleton
import proofs.«106196_j64544768524377_2_alg».proof.Proof.LibSoftmaxRow
import proofs.«106196_j64544768524377_2_alg».proof.Proof.LibKeepdims
import proofs.«106196_j64544768524377_2_alg».proof.Proof.LibSumContr
import proofs.«106196_j64544768524377_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Cert.KernelIdeal Cert.KernelIdeal.Gen Cert.LibSoftmaxRow Idealize.ShloMosaic Idealize.ShloMosaic.ValueIdx

/-! ## The row of logits -/

/-- The logits of tile row p: key row k' ↦ (Σ_e q[p,e]·k[k',e]) · 2⁻⁵. -/
def tileLogit (v0 : Vec Ideal S1x256x1024 .bf16) (v2 : Vec Ideal S1x2048x1024 .bf16) (p : Fin 256) : Fin 2048 → EReal :=
  fun k' => (∑ e : Fin 1024, v0 (ix3 (0 : Fin 1) p e) * v2 (ix3 (0 : Fin 1) k' e)) * Ideal.ofBits .f32 0x3D000000#32

/-! ## The non-pointwise operations, each read at an index -/

/-- The exponential of a vector reads, at an index, the exponential of the entry there. -/
theorem exp_apply {s : Shape} {φ : FTy} (x : FVec Ideal s φ) (i : s.Idx) : exp x i = Ideal.exp (x i) := rfl

/-- A product of a [256, 1024] matrix with the transpose of a [2048, 1024] matrix (both contracted over their last
    axis) into the zero accumulator reads, at (p, c), Σ_e L(p, e) · R(c, e). -/
theorem scores_apply (l : FVec Ideal S256x1024 .bf16) (r : FVec Ideal S2048x1024 .bf16) (p : Fin 256) (c : Fin 2048) :
    FloatOps.matmul dot_S256x1024_S2048x1024_S256x2048_1_1_0_0_n_n none l r (constant S256x2048 .f32 0x00000000#32) (ix2 p c)
      = ∑ e : Fin 1024, l (ix2 p e) * r (ix2 c e) := by
  refine (Ideal.matmul_constant_zero_apply dot_S256x1024_S2048x1024_S256x2048_1_1_0_0_n_n none l r (ix2 p c)).trans ?_
  refine LibSumContr.sum_contr dot_S256x1024_S2048x1024_S256x2048_1_1_0_0_n_n 1024 rfl rfl l r (ix2 p c)
    (fun e => ix2 p e) (fun e => ix2 c e) (fun e => ?_) (fun e => ?_)
  · funext a; apply Fin.ext
    match a with
    | ⟨0, _⟩ => rfl
    | ⟨1, _⟩ =>
      exact (dot_S256x1024_S2048x1024_S256x2048_1_1_0_0_n_n.lhsIdx_val_of_single (cl := 1) rfl _ _).trans
        (contrEquiv1_symm_val dot_S256x1024_S2048x1024_S256x2048_1_1_0_0_n_n 1024 rfl rfl e)
  · funext a; apply Fin.ext
    match a with
    | ⟨0, _⟩ => rfl
    | ⟨1, _⟩ =>
      exact (dot_S256x1024_S2048x1024_S256x2048_1_1_0_0_n_n.rhsIdx_val_of_single (cr := 1) rfl _ _).trans
        (contrEquiv1_symm_val dot_S256x1024_S2048x1024_S256x2048_1_1_0_0_n_n 1024 rfl rfl e)

/-- A maximum over the last axis of a [256, 2048] matrix, started from the word of −∞, reads at row p the maximum of
    that row taken from −∞. -/
theorem rowMax_apply (x : FVec Ideal S256x2048 .f32) (h : S256x2048.Reduces [1] S256) (hφ : FKind.Formats .f32)
    (hacc : (0xFF800000#32 : BitVec 32) = FKind.maximumf.neutral .f32 hφ) (p : Fin 256) :
    multiReduction .maximumf [1] S256 x 0xFF800000#32 h hφ hacc (ix1 p) = rowMax (fun c : Fin 2048 => x (ix2 p c)) := by
  refine (Ideal.multiReduction_maximumf_single x _ h hφ hacc (ix1 p)).trans ?_
  have e : (x ∘ h.lift (ix1 p)) = fun c : Fin 2048 => x (ix2 p c) := by
    funext c
    refine congrArg x ?_
    funext ax; apply Fin.ext
    match ax with
    | ⟨0, _⟩ => rfl
    | ⟨1, _⟩ => rfl
  show (Finset.univ : Finset (Fin 2048)).fold max (Ideal.ofBits .f32 0xFF800000#32) (x ∘ h.lift (ix1 p)) = _
  rw [e, c_neginf]
  rfl

/-- A [256] vector made a column and spread over 2048 columns reads, at (p, c), the vector at p. -/
theorem spreadCol_apply (v : FVec Ideal S256 .f32) (hc : S256.ShapeCasts S256x1) (hb : S256x1.Broadcasts S256x2048)
    (p : Fin 256) (c : Fin 2048) : broadcastTo S256x2048 (shapeCast S256x1 v hc) hb (ix2 p c) = v (ix1 p) :=
  (LibKeepdims.broadcastTo_a1_ab_apply _ hb p c 0).trans (LibKeepdims.shapeCast_a_a1_apply v hc p 0)

/-! ## The softmax of a matrix of logits, row by row -/

section softmax
variable (s : FVec Ideal S256x2048 .f32) (h : S256x2048.Reduces [1] S256) (hφ : FKind.Formats .f32)
  (hmax : (0xFF800000#32 : BitVec 32) = FKind.maximumf.neutral .f32 hφ)
  (hadd : (0x00000000#32 : BitVec 32) = FKind.add.neutral .f32 hφ)
  (hc : S256.ShapeCasts S256x1) (hb : S256x1.Broadcasts S256x2048)

/-- The logits minus their row's maximum, exponentiated. -/
def shiftedExp : FVec Ideal S256x2048 .f32 :=
  exp (subf s (broadcastTo S256x2048 (shapeCast S256x1 (multiReduction .maximumf [1] S256 s 0xFF800000#32 h hφ hmax) hc) hb))

/-- At (p, c) the shifted exponential is the row's `rowExp` at c. -/
theorem shiftedExp_apply (p : Fin 256) (c : Fin 2048) :
    shiftedExp s h hφ hmax hc hb (ix2 p c) = rowExp (fun c' : Fin 2048 => s (ix2 p c')) c := by
  show Ideal.exp (s (ix2 p c) - _) = Ideal.exp (s (ix2 p c) - rowMax _)
  refine congrArg (fun m => Ideal.exp (s (ix2 p c) - m)) ?_
  exact (spreadCol_apply _ hc hb p c).trans (rowMax_apply s h hφ hmax p)

/-- The sum of a row's shifted exponentials is the row's `rowSum`. -/
theorem shiftedExp_sum_apply (p : Fin 256) :
    multiReduction .add [1] S256 (shiftedExp s h hφ hmax hc hb) 0x00000000#32 h hφ hadd (ix1 p)
      = rowSum (fun c' : Fin 2048 => s (ix2 p c')) := by
  refine (LibKeepdims.multiReduction_add_lastAxis_apply _ _ h hφ hadd p).trans ?_
  exact Finset.sum_congr rfl fun c _ => shiftedExp_apply s h hφ hmax hc hb p c

/-- Every shifted exponential times the reciprocal of its row's sum: at (p, k), the reciprocal spelling of the softmax
    of row p. -/
theorem softmax_apply (p : Fin 256) (k : Fin 2048) :
    mulf (shiftedExp s h hφ hmax hc hb)
        (broadcastTo S256x2048
          (divf (broadcast S256x1 (Scalar.ofBits .f32 0x3F800000#32))
            (shapeCast S256x1 (multiReduction .add [1] S256 (shiftedExp s h hφ hmax hc hb) 0x00000000#32 h hφ hadd) hc)) hb)
        (ix2 p k)
      = attnK (fun c' : Fin 2048 => s (ix2 p c')) k := by
  refine (mulf_apply _ _ _).trans ?_
  refine congrArg₂ (· * ·) (shiftedExp_apply s h hφ hmax hc hb p k) ?_
  refine (LibKeepdims.broadcastTo_a1_ab_apply _ hb p k 0).trans ?_
  refine (divf_apply _ _ _).trans ?_
  refine congrArg₂ Ideal.div rfl ?_
  exact (LibKeepdims.shapeCast_a_a1_apply _ hc p 0).trans (shiftedExp_sum_apply s h hφ hmax hadd hc hb p)

end softmax

/-! ## The kernel's payloads -/

/-- The scaled logits of the tile at (p, c). -/
theorem scaled_apply (v0 : Vec Ideal S1x256x1024 .bf16) (v2 : Vec Ideal S1x2048x1024 .bf16) (p : Fin 256) (c : Fin 2048) :
    mulf (F := Ideal) (FloatOps.matmul dot_S256x1024_S2048x1024_S256x2048_1_1_0_0_n_n none
          (shapeCast S256x1024 v0 shapeCasts_S1x256x1024_S256x1024 : FVec Ideal S256x1024 .bf16)
          (shapeCast S2048x1024 v2 shapeCasts_S1x2048x1024_S2048x1024 : FVec Ideal S2048x1024 .bf16)
          (constant S256x2048 .f32 0x00000000#32))
        (broadcast S256x2048 (Scalar.ofBits .f32 0x3D000000#32)) (ix2 p c)
      = tileLogit v0 v2 p c := by
  refine (mulf_apply _ _ _).trans ?_
  refine congrArg₂ (· * ·) ?_ rfl
  refine (scores_apply _ _ p c).trans ?_
  refine Finset.sum_congr rfl fun e _ => congrArg₂ (· * ·) ?_ ?_
  · exact shapeCast_1ab_ab_apply v0 _ p e
  · exact shapeCast_1ab_ab_apply v2 _ c e

/-- The attention weights of the tile at (p, k): the reciprocal spelling of the softmax of the row of logits. -/
theorem pay1_apply (v0 : Vec Ideal S1x256x1024 .bf16) (v2 : Vec Ideal S1x2048x1024 .bf16) (p : Fin 256) (k : Fin 2048) :
    k1_pay1 (F := Ideal) v0 v2 (ix2 p k) = attnK (tileLogit v0 v2 p) k := by
  have hrow : (fun c' : Fin 2048 => mulf (F := Ideal) (FloatOps.matmul dot_S256x1024_S2048x1024_S256x2048_1_1_0_0_n_n none
          (shapeCast S256x1024 v0 shapeCasts_S1x256x1024_S256x1024 : FVec Ideal S256x1024 .bf16)
          (shapeCast S2048x1024 v2 shapeCasts_S1x2048x1024_S2048x1024 : FVec Ideal S2048x1024 .bf16)
          (constant S256x2048 .f32 0x00000000#32))
        (broadcast S256x2048 (Scalar.ofBits .f32 0x3D000000#32)) (ix2 p c')) = tileLogit v0 v2 p :=
    funext fun c' => scaled_apply v0 v2 p c'
  rw [← hrow]
  exact softmax_apply _ reduces_S256x2048_S256 (.inl rfl) rfl rfl shapeCasts_S256_S256x1 broadcasts_S256x1_S256x2048 p k

/-- The stored weights at (u, p, k). -/
theorem pay2_apply (v0 : Vec Ideal S1x256x1024 .bf16) (v2 : Vec Ideal S1x2048x1024 .bf16) (u : Fin 1) (p : Fin 256) (k : Fin 2048) :
    k1_pay2 (F := Ideal) v0 v2 (ix3 u p k) = attnK (tileLogit v0 v2 p) k :=
  (shapeCast_ab_1ab_apply (k1_pay1 (F := Ideal) v0 v2) _ u p k).trans (pay1_apply v0 v2 p k)

/-- The stored output at (u, p, e): the sum over keys of weight times value. -/
theorem pay3_apply (v0 : Vec Ideal S1x256x1024 .bf16) (v2 v4 : Vec Ideal S1x2048x1024 .bf16) (u : Fin 1) (p : Fin 256) (e : Fin 1024) :
    k1_pay3 (F := Ideal) v0 v2 v4 (ix3 u p e) = ∑ k : Fin 2048, attnK (tileLogit v0 v2 p) k * v4 (ix3 (0 : Fin 1) k e) := by
  have hm : FloatOps.matmul (DotDims.plain 256 2048 1024) none
        (truncf .bf16 (k1_pay1 (F := Ideal) v0 v2) bitsLt_bf16_f32 : FVec Ideal S256x2048 .bf16)
        (shapeCast S2048x1024 v4 shapeCasts_S1x2048x1024_S2048x1024 : FVec Ideal S2048x1024 .bf16)
        (constant S256x1024 .f32 0x00000000#32) (ix2 p e)
      = ∑ k : Fin 2048, attnK (tileLogit v0 v2 p) k * v4 (ix3 (0 : Fin 1) k e) := by
    refine (matmul_plain_zero_apply 256 2048 1024 none _ _ p e).trans ?_
    refine Finset.sum_congr rfl fun k _ => congrArg₂ (· * ·) ?_ ?_
    · exact pay1_apply v0 v2 p k
    · exact shapeCast_1ab_ab_apply v4 _ k e
  unfold k1_pay3
  exact (shapeCast_ab_1ab_apply _ _ u p e).trans hm

end Cert.Attn.Pay

end
-- ==== Proof.KiKernelValue.lean ====
/-
  What the kernel program computes, at the ideal values: the attention region's two result arrays are the attention
  weights and the output of the projection of the arguments.
  The chain: the first host stretch hands the projection region the input flattened to [8192, 1024], the weight
  transposed, and the bias; the region leaves Σ_e x[r, e] · wᵀ[e, f] + b[f] in its result array, block of rows by block
  of rows; the reshape to [4, 2048, 3072] makes that the specification's projection Q; the attention region's blocks of
  query rows then hold the reciprocal-spelt softmax of the 2⁻⁵-scaled logits of Q and its product with the value rows.
-/
import proofs.«106196_j64544768524377_2_alg».proof.Proof.KiRun
import proofs.«106196_j64544768524377_2_alg».proof.Proof.KiValue0
import proofs.«106196_j64544768524377_2_alg».proof.Proof.KiValue1
import proofs.«106196_j64544768524377_2_alg».proof.Proof.KiGlue
import proofs.«106196_j64544768524377_2_alg».proof.Proof.Pay0
import proofs.«106196_j64544768524377_2_alg».proof.Proof.Pay1

noncomputable section

namespace Cert.Attn.Ker

open Cert.KernelIdeal Cert.KernelIdeal.Gen Cert.KernelIdeal.Hand Cert.Attn
open Idealize.ShloMosaic Idealize.ShloMosaic.TcCoe Idealize.SL.Sem

variable (m : (ℓ : Loc nD τ sig) → Buf (Elt Ideal) ℓ) (c : Dev nD)

/-- The projection array as the attention region finds it is the specification's projection of the arguments. -/
theorem entry_projection :
    ent1 (F := Ideal) m c main_v4
      = qkv (m ((c.tc : Thread nD τ).loc main_arg0)) (m ((c.tc : Thread nD τ).loc main_arg1)) (m ((c.tc : Thread nD τ).loc main_arg2)) := by
  have h1 : ent1 (F := Ideal) m c main_v4
      = shapeCast S4x2048x3072 (val2 (F := Ideal) m c (Proc.devRef .tc main_v3) : S8192x3072.Idx → EReal) shapeCasts_S8192x3072_S4x2048x3072 :=
    Glue.after1_v4 (val2 m c)
  have h2 : (val2 (F := Ideal) m c (Proc.devRef .tc main_v3) : S8192x3072.Idx → EReal)
      = KVal.projK (ent0 m c main_v0) (ent0 m c main_v2) (ent0 m c main_arg2) :=
    (val2_arr m c 3).trans (KVal.arr0 (ent0 m) c fun v0 v3 v6 p f => Pay.pay0_apply v0 v3 v6 p f)
  have h3 : ent0 (F := Ideal) m c main_v0
      = shapeCast S8192x1024 (m ((c.tc : Thread nD τ).loc main_arg0) : S4x2048x1024.Idx → EReal) shapeCasts_S4x2048x1024_S8192x1024 :=
    Glue.after0_v0 (val0 m c)
  have h4 : ent0 (F := Ideal) m c main_v2
      = (truncf .bf16 (transpose S1024x3072 [1, 0] (m ((c.tc : Thread nD τ).loc main_arg1) : FVec Ideal S3072x1024 .f32)
          transposes_S3072x1024_S1024x3072_1_0) bitsLt_bf16_f32 : FVec Ideal S1024x3072 .bf16) :=
    Glue.after0_v2 (val0 m c)
  have h5 : ent0 (F := Ideal) m c main_arg2 = m ((c.tc : Thread nD τ).loc main_arg2) := Glue.after0_arg2 (val0 m c)
  rw [h1, h2, h3, h4, h5]
  exact Glue.glue_qkv _ _ _

/-- The output array the attention region leaves. -/
theorem kernel_out :
    (dat1 (F := Ideal) (ent1 m) c).arrAt 3 cfg1.N
      = outKer (qkv (m ((c.tc : Thread nD τ).loc main_arg0)) (m ((c.tc : Thread nD τ).loc main_arg1)) (m ((c.tc : Thread nD τ).loc main_arg2))) :=
  (KVal.arr1_out (ent1 m) c fun v0 v2 v4 u p e => Pay.pay3_apply v0 v2 v4 u p e).trans (congrArg outKer (entry_projection m c))

/-- The attention weights the attention region leaves. -/
theorem kernel_attn :
    (dat1 (F := Ideal) (ent1 m) c).arrAt 4 cfg1.N
      = attnKer (qkv (m ((c.tc : Thread nD τ).loc main_arg0)) (m ((c.tc : Thread nD τ).loc main_arg1)) (m ((c.tc : Thread nD τ).loc main_arg2))) :=
  (KVal.arr1_attn (ent1 m) c fun v0 v2 u p k => Pay.pay2_apply v0 v2 u p k).trans (congrArg attnKer (entry_projection m c))

end Cert.Attn.Ker

end
-- ==== Proof.RefValue.lean ====
/-
  The reference program computes the specification's quotient spelling of attention over the fused projection.

  Read one element at a time, in program order:
  • the projection Q[n, s, f] = Σ_e X[n, s, e] · W[f, e] + b[f] (a contraction plus the bias broadcast along the first two
    axes), and its three column blocks of 1024: queries, keys, values;
  • the logits Σ_e Q[n, q, e] · Q[n, k, 1024 + e], divided by 32;
  • the row's maximum: a reduce with a maximum body from −∞ over the key axis is the fold of max from ⊥ over the key
    coordinates, and the maximum of −∞ with it changes nothing;
  • the shifted exponentials exp (logit − row maximum), their sum over the key axis started from zero, and the quotient of
    each exponential by that sum: the attention weights;
  • the output Σ_k weight[n, q, k] · Q[n, k, 2048 + e].
  Each stage is stated at a literal index (n, q, k); the index maps of the generated stage lemmas are identified with the
  specification's coordinates axis by axis.
-/
import proofs.«106196_j64544768524377_2_alg».proof.Proof.Gen.ReferenceIdeal.Read
import proofs.«106196_j64544768524377_2_alg».proof.Proof.Spec

noncomputable section

namespace Cert.Attn.Ref

open Cert.Attn Cert.LibSoftmaxRow Cert.ReferenceIdeal Cert.ReferenceIdeal.Read Idealize.ShloMosaic Idealize.ShloMosaic.ValueIdx

/-- The three arguments' types: X, W and b as arrays of extended reals. -/
abbrev TX := (⟨S4x2048x1024, .f32⟩ : BufTy).Contents (Elt Ideal)
abbrev TW := (⟨S3072x1024, .f32⟩ : BufTy).Contents (Elt Ideal)
abbrev Tb := (⟨S3072, .f32⟩ : BufTy).Contents (Elt Ideal)

/-- The reference's fused projection, entry (n, s, f): Σ_e X[n, s, e] · W[f, e] + b[f]. -/
theorem v3_at (x0 : TX) (x1 : TW) (x2 : Tb) (n : Fin 4) (s : Fin 2048) (f : Fin 3072) :
    val_main_v3 (F := Ideal) x0 x1 x2 (ix3 n s f) = qkvAt x0 x1 x2 n s f := by
  rw [val_main_v3_apply, val_main_v0_apply, val_main_v2_apply, val_main_v1_apply]
  unfold qkvAt
  show (_ : EReal) + _ = _
  congr 1
  · refine Finset.sum_congr rfl fun e _ => ?_
    congr 2
    · funext a; match a with | ⟨0, _⟩ => rfl | ⟨1, _⟩ => rfl | ⟨2, _⟩ => rfl
    · funext a; match a with | ⟨0, _⟩ => rfl | ⟨1, _⟩ => rfl
  · congr 1
    funext a; match a with | ⟨0, _⟩ => rfl

/-- The query block of the projection: columns 0 … 1023. -/
theorem v4_at (x0 : TX) (x1 : TW) (x2 : Tb) (n : Fin 4) (s : Fin 2048) (e : Fin 1024) :
    val_main_v4 (F := Ideal) x0 x1 x2 (ix3 n s e) = qkv x0 x1 x2 (ix3 n s (colQ e)) := by
  rw [val_main_v4_apply, qkv_ix3, ← v3_at]
  congr 1
  funext a; match a with | ⟨0, _⟩ => rfl | ⟨1, _⟩ => rfl | ⟨2, _⟩ => rfl

/-- The key block of the projection: columns 1024 … 2047. -/
theorem v5_at (x0 : TX) (x1 : TW) (x2 : Tb) (n : Fin 4) (s : Fin 2048) (e : Fin 1024) :
    val_main_v5 (F := Ideal) x0 x1 x2 (ix3 n s e) = qkv x0 x1 x2 (ix3 n s (colK e)) := by
  rw [val_main_v5_apply, qkv_ix3, ← v3_at]
  congr 1
  funext a; match a with | ⟨0, _⟩ => rfl | ⟨1, _⟩ => rfl | ⟨2, _⟩ => rfl

/-- The value block of the projection: columns 2048 … 3071. -/
theorem v6_at (x0 : TX) (x1 : TW) (x2 : Tb) (n : Fin 4) (s : Fin 2048) (e : Fin 1024) :
    val_main_v6 (F := Ideal) x0 x1 x2 (ix3 n s e) = qkv x0 x1 x2 (ix3 n s (colV e)) := by
  rw [val_main_v6_apply, qkv_ix3, ← v3_at]
  congr 1
  funext a; match a with | ⟨0, _⟩ => rfl | ⟨1, _⟩ => rfl | ⟨2, _⟩ => rfl

/-- The unscaled logits: query row q against key row k, contracted over the 1024 columns. -/
theorem v7_at (x0 : TX) (x1 : TW) (x2 : Tb) (n : Fin 4) (q k : Fin 2048) :
    val_main_v7 (F := Ideal) x0 x1 x2 (ix3 n q k) = dotQK (qkv x0 x1 x2) n q k := by
  rw [val_main_v7_apply]
  unfold dotQK
  refine Finset.sum_congr rfl fun e _ => ?_
  rw [← v4_at, ← v5_at]
  congr 2
  · funext a; match a with | ⟨0, _⟩ => rfl | ⟨1, _⟩ => rfl | ⟨2, _⟩ => rfl
  · funext a; match a with | ⟨0, _⟩ => rfl | ⟨1, _⟩ => rfl | ⟨2, _⟩ => rfl

/-- The logits: the contraction divided by 32. -/
theorem v9_at (x0 : TX) (x1 : TW) (x2 : Tb) (n : Fin 4) (q k : Fin 2048) :
    val_main_v9 (F := Ideal) x0 x1 x2 (ix3 n q k) = logitR (qkv x0 x1 x2) n q k := by
  rw [val_main_v9_apply, val_main_v8_apply, val_main_cst_apply, v7_at]
  rfl

/-- The reduced index (n, q) with coordinate k put back on the dropped last axis is (n, q, k). -/
theorem lift_ix3 (h : S4x2048x2048.Reduces [2] S4x2048) (n : Fin 4) (q : Fin 2048) (k : Fin (S4x2048x2048.size 2)) :
    h.lift (ix2 n q) k = ix3 n q (⟨k.val, k.isLt⟩ : Fin 2048) := by
  funext c; apply Fin.ext
  fin_cases c <;> rfl

/-- The reduce with a maximum body from −∞ over the key axis is the row's maximum of the logits. -/
theorem v10_at (x0 : TX) (x1 : TW) (x2 : Tb) (n : Fin 4) (q : Fin 2048) :
    val_main_v10 (F := Ideal) x0 x1 x2 (ix2 n q) = rowMax (logitR (qkv x0 x1 x2) n q) := by
  unfold val_main_v10
  have h : S4x2048x2048.Reduces [2] S4x2048 := by decide
  generalize hy : val_main_v9 (F := Ideal) x0 x1 x2 = y
  refine (Host.reduce_eq_fold_single (FloatOps.maximumf (F := Ideal) (φ := .f32)) y (val_main_cst_0 (F := Ideal)) Gen.reducesTo_S4x2048x2048_S4x2048_d2 h Gen.h_S_ (ix2 n q)).trans ?_
  have hf : (y ∘ h.lift (ix2 n q)) = fun k : Fin 2048 => logitR (qkv x0 x1 x2) n q k := funext fun k => by
    show y (h.lift (ix2 n q) k) = _
    rw [lift_ix3 h n q k, ← hy, v9_at]
    rfl
  refine (congrArg (fun f => Finset.fold (FloatOps.maximumf (F := Ideal) (φ := .f32)) (val_main_cst_0 (F := Ideal) (Shape.Idx.first Gen.h_S_)) f (Finset.univ : Finset (Fin 2048))) hf).trans ?_
  rw [val_main_cst_0_apply]
  unfold rowMax
  show Finset.fold max (Ideal.ofBits .f32 0xFF800000#32) _ _ = _
  rw [c_neginf]

/-- The maximum of −∞ and the row's maximum is the row's maximum. -/
theorem v12_at (x0 : TX) (x1 : TW) (x2 : Tb) (n : Fin 4) (q : Fin 2048) :
    val_main_v12 (F := Ideal) x0 x1 x2 (ix2 n q) = rowMax (logitR (qkv x0 x1 x2) n q) := by
  rw [val_main_v12_apply, val_main_v11_apply, val_main_cst_1_apply, v10_at]
  show max (Ideal.ofBits .f32 0xFF800000#32) _ = _
  rw [c_neginf]
  exact max_eq_right bot_le

/-- The row's maximum, broadcast back along the key axis. -/
theorem v14_at (x0 : TX) (x1 : TW) (x2 : Tb) (n : Fin 4) (q k : Fin 2048) :
    val_main_v14 (F := Ideal) x0 x1 x2 (ix3 n q k) = rowMax (logitR (qkv x0 x1 x2) n q) := by
  rw [val_main_v14_apply, val_main_v13_apply, ← v12_at]
  congr 1
  funext a; match a with | ⟨0, _⟩ => rfl | ⟨1, _⟩ => rfl

/-- The exponential of a logit shifted by its row's maximum. -/
theorem v16_at (x0 : TX) (x1 : TW) (x2 : Tb) (n : Fin 4) (q k : Fin 2048) :
    val_main_v16 (F := Ideal) x0 x1 x2 (ix3 n q k) = rowExp (logitR (qkv x0 x1 x2) n q) k := by
  rw [val_main_v16_apply, val_main_v15_apply, v9_at, v14_at]
  rfl

/-- The sum of the row's shifted exponentials, started from zero. -/
theorem v17_at (x0 : TX) (x1 : TW) (x2 : Tb) (n : Fin 4) (q : Fin 2048) :
    val_main_v17 (F := Ideal) x0 x1 x2 (ix2 n q)
      = Ideal.ofBits .f32 0x00000000#32 + rowSum (logitR (qkv x0 x1 x2) n q) := by
  rw [val_main_v17_apply, val_main_cst_2_apply]
  unfold rowSum
  show Ideal.ofBits .f32 0x00000000#32 + _ = _
  congr 1
  refine Finset.sum_congr rfl fun k _ => ?_
  rw [← v16_at]
  congr 1
  funext a; match a with | ⟨0, _⟩ => rfl | ⟨1, _⟩ => rfl | ⟨2, _⟩ => rfl

/-- The row's sum, broadcast back along the key axis. -/
theorem v19_at (x0 : TX) (x1 : TW) (x2 : Tb) (n : Fin 4) (q k : Fin 2048) :
    val_main_v19 (F := Ideal) x0 x1 x2 (ix3 n q k)
      = Ideal.ofBits .f32 0x00000000#32 + rowSum (logitR (qkv x0 x1 x2) n q) := by
  rw [val_main_v19_apply, val_main_v18_apply, ← v17_at]
  congr 1
  funext a; match a with | ⟨0, _⟩ => rfl | ⟨1, _⟩ => rfl

/-- The attention weights: each shifted exponential divided by its row's sum. -/
theorem v20_at (x0 : TX) (x1 : TW) (x2 : Tb) (n : Fin 4) (q k : Fin 2048) :
    val_main_v20 (F := Ideal) x0 x1 x2 (ix3 n q k) = attnRAt (qkv x0 x1 x2) n q k := by
  rw [val_main_v20_apply, v16_at, v19_at]
  rfl

/-- The output: the attention weights applied to the value rows. -/
theorem v21_at (x0 : TX) (x1 : TW) (x2 : Tb) (n : Fin 4) (q : Fin 2048) (e : Fin 1024) :
    val_main_v21 (F := Ideal) x0 x1 x2 (ix3 n q e) = outRAt (qkv x0 x1 x2) n q e := by
  rw [val_main_v21_apply]
  unfold outRAt
  refine Finset.sum_congr rfl fun k _ => ?_
  rw [← v6_at, ← attnRAt, ← v20_at]
  congr 2
  · funext a; match a with | ⟨0, _⟩ => rfl | ⟨1, _⟩ => rfl | ⟨2, _⟩ => rfl
  · funext a; match a with | ⟨0, _⟩ => rfl | ⟨1, _⟩ => rfl | ⟨2, _⟩ => rfl

/-- The reference's attention weights are the specification's, quotient spelling, of the projection. -/
theorem ref_attn (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v20 (F := Ideal) x0 x1 x2 = attnRef (qkv x0 x1 x2) := by
  funext i
  obtain ⟨n, q, k, rfl⟩ : ∃ (n : Fin 4) (q : Fin 2048) (k : Fin 2048), i = ix3 n q k := ⟨i 0, i 1, i 2, eq_ix3 i⟩
  rw [v20_at, attnRef_ix3]

/-- The reference's output is the specification's, quotient spelling, of the projection. -/
theorem ref_out (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v21 (F := Ideal) x0 x1 x2 = outRef (qkv x0 x1 x2) := by
  funext i
  obtain ⟨n, q, e, rfl⟩ : ∃ (n : Fin 4) (q : Fin 2048) (e : Fin 1024), i = ix3 n q e := ⟨i 0, i 1, i 2, eq_ix3 i⟩
  rw [v21_at, outRef_ix3]

end Cert.Attn.Ref

end
-- ==== Proof.Algebra.lean ====
/-
  Over real inputs the two spellings of the attention are the same numbers.

  With real X, W and b every entry of the projection Q = X·Wᵀ + b is a real, so every unscaled logit Σ_e q·k is a real.
  The f32 word 0x3D000000 is 2⁻⁵ = 1/32 and the word 0x42000000 is 32, and the quotient by the nonzero real 32 is the
  product with 1/32: the product-scaled and the quotient-scaled logit rows are one and the same row of reals. Over a
  nonempty row of real logits the reciprocal spelling and the quotient spelling of the softmax row agree, so the attention
  weights agree entry by entry, and the outputs Σ_k weight_k · value_k agree summand by summand.
-/
import proofs.«106196_j64544768524377_2_alg».proof.Proof.Spec

noncomputable section

namespace Cert.Attn

open Cert.LibSoftmaxRow Idealize.ShloMosaic Idealize.ShloMosaic.ValueIdx

/-- The f32 word 0x3D000000 is 2⁻⁵ = 1/32. -/
theorem c_inv32 : Ideal.ofBits .f32 0x3D000000#32 = ((1 / 32 : ℝ) : EReal) := by
  simp [Ideal.ofBits, Ideal.ieee, -EReal.coe_mul]; norm_num

/-- The f32 word 0x42000000 is 32. -/
theorem c_32 : Ideal.ofBits .f32 0x42000000#32 = ((32 : ℝ) : EReal) := by
  simp [Ideal.ofBits, Ideal.ieee, -EReal.coe_mul]; norm_num

/-- Every entry of the projection of real inputs is a real: a finite sum of products of reals plus a real. -/
theorem qkv_real (X : SX.Idx → EReal) (W : SW.Idx → EReal) (b : Sb.Idx → EReal)
    (hX : ∀ i, ∃ r : ℝ, X i = (r : EReal)) (hW : ∀ i, ∃ r : ℝ, W i = (r : EReal)) (hb : ∀ i, ∃ r : ℝ, b i = (r : EReal)) :
    ∃ Qr : SQ.Idx → ℝ, ∀ i, qkv X W b i = (Qr i : EReal) := by
  choose x hx using hX
  choose w hw using hW
  choose β hβ using hb
  refine ⟨fun i => (∑ e : Fin 1024, x (ix3 (i 0) (i 1) e) * w (ix2 (i 2) e)) + β (ix1 (i 2)), fun i => ?_⟩
  unfold qkv qkvAt
  rw [EReal.coe_add, coe_sum, hβ]
  congr 1
  exact Finset.sum_congr rfl fun e _ => by rw [hx, hw, EReal.coe_mul]

/-- The unscaled logit of a real-valued projection is a real. -/
theorem dotQK_real (Q : SQ.Idx → EReal) (Qr : SQ.Idx → ℝ) (hQ : ∀ i, Q i = (Qr i : EReal)) (n : Fin 4) (q k : Fin 2048) :
    dotQK Q n q k = ((∑ e : Fin 1024, Qr (ix3 n q (colQ e)) * Qr (ix3 n k (colK e)) : ℝ) : EReal) := by
  unfold dotQK
  rw [coe_sum]
  exact Finset.sum_congr rfl fun e _ => by rw [hQ, hQ, EReal.coe_mul]

/-- Over a real-valued projection the product-scaled logit row is a row of reals: the unscaled logit times 1/32. -/
theorem logitK_real (Q : SQ.Idx → EReal) (Qr : SQ.Idx → ℝ) (hQ : ∀ i, Q i = (Qr i : EReal)) (n : Fin 4) (q : Fin 2048) :
    logitK Q n q = fun k => (((∑ e : Fin 1024, Qr (ix3 n q (colQ e)) * Qr (ix3 n k (colK e))) * (1 / 32) : ℝ) : EReal) := by
  funext k
  unfold logitK
  rw [dotQK_real Q Qr hQ, c_inv32, ← EReal.coe_mul]

/-- Over a real-valued projection the quotient-scaled logit row is the same row of reals: dividing by 32 is multiplying
by 1/32. -/
theorem logitR_real (Q : SQ.Idx → EReal) (Qr : SQ.Idx → ℝ) (hQ : ∀ i, Q i = (Qr i : EReal)) (n : Fin 4) (q : Fin 2048) :
    logitR Q n q = fun k => (((∑ e : Fin 1024, Qr (ix3 n q (colQ e)) * Qr (ix3 n k (colK e))) * (1 / 32) : ℝ) : EReal) := by
  funext k
  unfold logitR
  rw [dotQK_real Q Qr hQ, c_32, Ideal.div_coe (by norm_num : (32 : ℝ) ≠ 0), ← EReal.coe_mul]

/-- Over a real-valued projection the two spellings of an attention weight agree. -/
theorem attnAt_eq_of_real (Q : SQ.Idx → EReal) (Qr : SQ.Idx → ℝ) (hQ : ∀ i, Q i = (Qr i : EReal)) (n : Fin 4) (q k : Fin 2048) :
    attnK (logitK Q n q) k = attnR (logitR Q n q) k := by
  rw [logitK_real Q Qr hQ, logitR_real Q Qr hQ]
  exact attn_eq_of_real (by norm_num : 0 < 2048) _ k

/-- Over a real-valued projection the two spellings of an output entry agree: both are Σ_k weight_k · value_k, and the
weights agree summand by summand. -/
theorem outAt_eq_of_real (Q : SQ.Idx → EReal) (Qr : SQ.Idx → ℝ) (hQ : ∀ i, Q i = (Qr i : EReal)) (n : Fin 4) (q : Fin 2048)
    (e : Fin 1024) : outKAt Q n q e = outRAt Q n q e := by
  unfold outKAt outRAt
  exact Finset.sum_congr rfl fun k _ => by rw [attnAt_eq_of_real Q Qr hQ]

/-- Over real inputs the attention weights in the reciprocal spelling over product-scaled logits are the attention
weights in the quotient spelling over quotient-scaled logits. -/
theorem attn_ker_eq_ref (X : SX.Idx → EReal) (W : SW.Idx → EReal) (b : Sb.Idx → EReal)
    (hX : ∀ i, ∃ r : ℝ, X i = (r : EReal)) (hW : ∀ i, ∃ r : ℝ, W i = (r : EReal)) (hb : ∀ i, ∃ r : ℝ, b i = (r : EReal)) :
    attnKer (qkv X W b) = attnRef (qkv X W b) := by
  obtain ⟨Qr, hQ⟩ := qkv_real X W b hX hW hb
  funext i
  exact attnAt_eq_of_real _ Qr hQ (i 0) (i 1) (i 2)

/-- Over real inputs the outputs Σ_k weight_k · value_k of the two spellings agree: the weights agree summand by
summand. -/
theorem out_ker_eq_ref (X : SX.Idx → EReal) (W : SW.Idx → EReal) (b : Sb.Idx → EReal)
    (hX : ∀ i, ∃ r : ℝ, X i = (r : EReal)) (hW : ∀ i, ∃ r : ℝ, W i = (r : EReal)) (hb : ∀ i, ∃ r : ℝ, b i = (r : EReal)) :
    outKer (qkv X W b) = outRef (qkv X W b) := by
  obtain ⟨Qr, hQ⟩ := qkv_real X W b hX hW hb
  funext i
  exact outAt_eq_of_real _ Qr hQ (i 0) (i 1) (i 2)

end Cert.Attn

end
-- ==== Proof.Finite.lean ====
/-
  The precondition makes every input entry a real.

  The precondition is the conjunction, over the three argument arrays, of "every entry x has |x| < +∞", each conjunct
  a reduction by "and" of the entrywise comparisons into a single word, and it is stated to answer 1. A conjunction of
  one-bit words that is 1 has both words 1; a reduction by "and" over all axes that is 1 met a 1 at every entry; the
  comparison at an entry is max x (−x) < +∞ over the extended reals (the word 0x7F800000 is +∞), which excludes
  x = +∞ and x = −∞: the entry is a real.
-/
import proofs.«106196_j64544768524377_2_alg».proof.Defs
import proofs.«106196_j64544768524377_2_alg».proof.Proof.Gen.Pre_finite_inputs
import Idealize.ShloMosaic.Lib.ReduceAll
import Idealize.ShloMosaic.Lib.ValueIdx

noncomputable section

namespace Cert.Attn.Finite

open Idealize.ShloMosaic Idealize.SL.Sem

/-- A rank-0 array has one index. -/
instance : Subsingleton Cert.Pre_finite_inputs.S_.Idx := ⟨fun a b => funext fun d => d.elim0⟩

/-- The f32 word 0x7F800000 is +∞. -/
theorem c_inf : Ideal.ofBits .f32 0x7F800000#32 = ⊤ := by
  simp [Ideal.ofBits, Ideal.ieee]

/-- An extended real whose absolute value max x (−x) is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- An entry of an array whose comparison |x| < +∞ (the word 0x7F800000 broadcast from a scalar) answers 1 is a real. -/
theorem real_of_cmp {s : Shape} (x : FVec Ideal s .f32) (hb : Cert.Pre_finite_inputs.S_.BroadcastsInDim s (![] : Fin 0 → Fin s.rank))
    (i : s.Idx)
    (h : cmpf .olt (Host.absf x) (broadcastInDim s ![] hb (constant Cert.Pre_finite_inputs.S_ .f32 0x7F800000#32)) i = 1#1) :
    ∃ r : ℝ, x i = (r : EReal) := by
  have h' : BitVec.ofBool (decide (max (x i : EReal) (-(x i : EReal)) < Ideal.ofBits .f32 0x7F800000#32)) = 1#1 := h
  rw [c_inf] at h'
  apply real_of_abs_lt_top
  by_contra hn
  rw [decide_eq_false hn] at h'
  exact absurd h' (by decide)

/-- Under the precondition every entry of each of the three argument arrays, on every device, is a real. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have e := congrFun (h c) ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_cmp _ _ i (Host.reduce_andi_all _ _ _ _ _ e0 i)
  · exact real_of_cmp _ _ i (Host.reduce_andi_all _ _ _ _ _ e1 i)
  · exact real_of_cmp _ _ i (Host.reduce_andi_all _ _ _ _ _ e2 i)

end Cert.Attn.Finite

end
-- ==== Proof.lean ====
/-
  A fused QKV projection followed by scaled-dot-product attention, as two kernel regions, against its array-language
  reference: the five claims.

  The mathematics. From X : [4, 2048, 1024], W : [3072, 1024], b : [3072] both programs form the projection
  Q[n, s, f] = Σ_e X[n, s, e] · W[f, e] + b[f]; for each batch n and query row q the logits over the key rows k are
  Σ_e Q[n, q, e] · Q[n, k, 1024 + e] scaled by 1/32; the attention weights are the softmax of the logits over k and the
  output is the weights applied to the value rows Q[n, k, 2048 + e]. The kernel scales by a product with 2⁻⁵ and
  normalises by a product with the reciprocal of the row's sum; the reference divides by 32 and by the row's sum. On the
  extended reals these agree where the sums are nonzero reals, which they are when every input entry is a real: that is
  the one place the precondition is used. Everything else — the order of the sums, the tiling of the rows into blocks,
  the three windows onto one array, the changes of float format — is no difference at the ideal values.

  The frames: each kernel program runs as host operations, the projection region, a reshape, the attention region; each
  region's body loads whole blocks, computes, and stores whole blocks, so its obligation is discharged by running it;
  the runs compose along the buffer contents at each boundary. The reference's run is the generated one.
-/
import proofs.«106196_j64544768524377_2_alg».proof.Defs
import proofs.«106196_j64544768524377_2_alg».proof.Proof.Gen.Kernel
import proofs.«106196_j64544768524377_2_alg».proof.Proof.Gen.KernelIdeal
import proofs.«106196_j64544768524377_2_alg».proof.Proof.Gen.ReferenceIdeal
import proofs.«106196_j64544768524377_2_alg».proof.Proof.Gen.ReferenceIdeal.Read
import proofs.«106196_j64544768524377_2_alg».proof.Proof.Gen.Pre_finite_inputs
import proofs.«106196_j64544768524377_2_alg».proof.Proof.KRun
import proofs.«106196_j64544768524377_2_alg».proof.Proof.KiRun
import proofs.«106196_j64544768524377_2_alg».proof.Proof.KiKernelValue
import proofs.«106196_j64544768524377_2_alg».proof.Proof.RefValue
import proofs.«106196_j64544768524377_2_alg».proof.Proof.Algebra
import proofs.«106196_j64544768524377_2_alg».proof.Proof.Finite
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_k : Cert.frame_Kernel := fun m ρ _ =>
  (θ_run Cert.Kernel.defs _ _).mono (fun _ h c => (h c).2.2) (Cert.Kernel.Hand.run_main (F := Bits) m ρ)

/-- So does the idealized kernel program. -/
theorem frame_ki : Cert.frame_KernelIdeal := fun m ρ _ =>
  (θ_run Cert.KernelIdeal.defs _ _).mono (fun _ h c => (h c).2.2) (Cert.KernelIdeal.Hand.run_main (F := Ideal) m ρ)

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- At the ideal values, from memories agreeing on real-valued arguments, both programs end with the same output and the
    same attention weights: the kernel's reciprocal spelling of the softmax of the 2⁻⁵-scaled logits of the projection, and
    the reference's quotient spelling of the softmax of the logits divided by 32, are one function of the arguments. -/
theorem algebraic : Cert.algebraic_KernelIdeal_ReferenceIdeal := by
  intro m ρ m' ρ' hpre hagree
  refine ⟨fun c => Cert.Attn.outKer (Cert.Attn.qkv
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
      fun c => Cert.Attn.attnKer (Cert.Attn.qkv
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.Attn.Ker.kernel_out m c), (h c).2.1.trans (Cert.Attn.Ker.kernel_attn m c), (h c).2.2⟩)
      (Cert.KernelIdeal.Hand.run_main (F := Ideal) m ρ)
  · refine (θ_run Cert.ReferenceIdeal.defs _ _).mono (fun _ h c => ?_) (Cert.ReferenceIdeal.Value.run (F := Ideal) m' ρ')
    obtain ⟨hX, hW, hb⟩ := Cert.Attn.Finite.real_of_pre m hpre c
    refine ⟨?_, ?_, (h c).2.2⟩
    · rw [(h c).1, Cert.ReferenceIdeal.Read.val_main_v21_eq, Cert.Attn.Ref.ref_out, (hagree c).1, (hagree c).2.1, (hagree c).2.2]
      exact (Cert.Attn.out_ker_eq_ref _ _ _ hX hW hb).symm
    · rw [(h c).2.1, Cert.ReferenceIdeal.Read.val_main_v20_eq, Cert.Attn.Ref.ref_attn, (hagree c).1, (hagree c).2.1, (hagree c).2.2]
      exact (Cert.Attn.attn_ker_eq_ref _ _ _ hX hW hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
